-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000x32 : Shape := ⟨2, ![1600000, 32]⟩
abbrev S1600000 : Shape := ⟨1, ![1600000]⟩
abbrev S96x64 : Shape := ⟨2, ![96, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x32 .f32) (main_arg15 : FVec F S32 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x32 .f32 := Host.absf main_arg14
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg9 : FVec F S32 .f32) (main_arg10 : FVec F S64x64 .f32) (main_arg11 : FVec F S64 .f32) (main_arg12 : FVec F S64x64 .f32) (main_arg13 : FVec F S64 .f32) (main_arg14 : FVec F S64x32 .f32) (main_arg15 : FVec F S32 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_v48 main_v49 main_v50

def fn_part1 {F : FTy → Type} [FloatOps F] (main_arg6 : FVec F S64x64 .f32) (main_arg7 : FVec F S64 .f32) (main_arg8 : FVec F S64x32 .f32) (main_arg9 : FVec F S32 .f32) (main_arg10 : FVec F S64x64 .f32) (main_arg11 : FVec F S64 .f32) (main_arg12 : FVec F S64x64 .f32) (main_arg13 : FVec F S64 .f32) (main_arg14 : FVec F S64x32 .f32) (main_arg15 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x32 .f32) (main_arg1 : FVec F S1600000x32 .f32) (main_arg2 : IVec S1600000 32) (main_arg3 : IVec S1600000 32) (main_arg4 : FVec F S96x64 .f32) (main_arg5 : FVec F S64 .f32) (main_arg6 : FVec F S64x64 .f32) (main_arg7 : FVec F S64 .f32) (main_arg8 : FVec F S64x32 .f32) (main_arg9 : FVec F S32 .f32) (main_arg10 : FVec F S64x64 .f32) (main_arg11 : FVec F S64 .f32) (main_arg12 : FVec F S64x64 .f32) (main_arg13 : FVec F S64 .f32) (main_arg14 : FVec F S64x32 .f32) (main_arg15 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S96x64 .f32 := Host.absf main_arg4
  let main_cst_2 : FVec F S_ .f32 := constant S_ .f32 0x7F800000#32
  let main_v10 : FVec F S96x64 .f32 := broadcastInDim S96x64 ![] bcast_S_S96x64 main_cst_2
  let main_v11 : IVec S96x64 1 := cmpf .olt main_v9 main_v10
  let main_c_3 : IVec S_ 1 := constantI S_ 1 1#1
  let main_v12 : IVec S_ 1 := (fun x v => Host.reduce IntOp.andi x v reducesTo_S96x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x32 : Shape := ⟨2, ![100000, 32]⟩
abbrev S1600000x32 : Shape := ⟨2, ![1600000, 32]⟩
abbrev S1600000 : Shape := ⟨1, ![1600000]⟩
abbrev S96x64 : Shape := ⟨2, ![96, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩
abbrev S1600000x1 : Shape := ⟨2, ![1600000, 1]⟩
abbrev S32x64 : Shape := ⟨2, ![32, 64]⟩
abbrev S1x64 : Shape := ⟨2, ![1, 64]⟩
abbrev S1x32 : Shape := ⟨2, ![1, 32]⟩
abbrev S8000x32 : Shape := ⟨2, ![8000, 32]⟩
abbrev S8000x64 : Shape := ⟨2, ![8000, 64]⟩
abbrev S5000x32 : Shape := ⟨2, ![5000, 32]⟩
abbrev S5000x64 : Shape := ⟨2, ![5000, 64]⟩

abbrev nBuf : Space → Nat
  | .hbm => 52
  | .vmem => 29
  | .smem => 0
  | _ => 0

abbrev bufTy : (tb : Table) → Fin (tcTables nBuf tb) → BufTy
  | .hbm, ⟨0, _⟩ => ⟨S100000x32, .f32⟩
  | .hbm, ⟨1, _⟩ => ⟨S1600000x32, .f32⟩
  | .hbm, ⟨2, _⟩ => ⟨S1600000, .i32⟩
  | .hbm, ⟨3, _⟩ => ⟨S1600000, .i32⟩
  | .hbm, ⟨4, _⟩ => ⟨S96x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x32, .f32⟩
  | .hbm, ⟨15, _⟩ => ⟨S32, .f32⟩
  | .hbm, ⟨16, _⟩ => ⟨S100000x32, .bf16⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x32, .bf16⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x32, .bf16⟩
  | .hbm, ⟨35, _⟩ => ⟨S32x64, .f32⟩
  | .hbm, ⟨36, _⟩ => ⟨S32x64, .f32⟩
  | .hbm, ⟨37, _⟩ => ⟨S32x64, .f32⟩
  | .hbm, ⟨38, _⟩ => ⟨S1x64, .f32⟩
  | .hbm, ⟨39, _⟩ => ⟨S1x64, .f32⟩
  | .hbm, ⟨40, _⟩ => ⟨S1x32, .f32⟩
  | .hbm, ⟨41, _⟩ => ⟨S1600000x32, .f32⟩
  | .hbm, ⟨42, _⟩ => ⟨S_, .f32⟩
  | .hbm, ⟨43, _⟩ => ⟨S100000x32, .f32⟩
  | .hbm, ⟨44, _⟩ => ⟨S1600000x1, .i32⟩
  | .hbm, ⟨45, _⟩ => ⟨S100000x32, .f32⟩
  | .hbm, ⟨46, _⟩ => ⟨S32x64, .f32⟩
  | .hbm, ⟨47, _⟩ => ⟨S32x64, .f32⟩
  | .hbm, ⟨48, _⟩ => ⟨S1x64, .f32⟩
  | .hbm, ⟨49, _⟩ => ⟨S1x64, .f32⟩
  | .hbm, ⟨50, _⟩ => ⟨S1x32, .f32⟩
  | .hbm, ⟨51, _⟩ => ⟨S100000x32, .f32⟩
  | .local _ .vmem, ⟨0, _⟩ => ⟨S8000x32, .bf16⟩
  | .local _ .vmem, ⟨1, _⟩ => ⟨S8000x32, .bf16⟩
  | .local _ .vmem, ⟨2, _⟩ => ⟨S8000x32, .bf16⟩
  | .local _ .vmem, ⟨3, _⟩ => ⟨S8000x32, .bf16⟩
  | .local _ .vmem, ⟨4, _⟩ => ⟨S8000x32, .f32⟩
  | .local _ .vmem, ⟨5, _⟩ => ⟨S8000x32, .f32⟩
  | .local _ .vmem, ⟨6, _⟩ => ⟨S32x64, .f32⟩
  | .local _ .vmem, ⟨7, _⟩ => ⟨S32x64, .f32⟩
  | .local _ .vmem, ⟨8, _⟩ => ⟨S32x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x32, .f32⟩
  | .local _ .vmem, ⟨13, _⟩ => ⟨S1x32, .f32⟩
  | .local _ .vmem, ⟨14, _⟩ => ⟨S8000x32, .f32⟩
  | .local _ .vmem, ⟨15, _⟩ => ⟨S8000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S32x64, .f32⟩
  | .local _ .vmem, ⟨21, _⟩ => ⟨S32x64, .f32⟩
  | .local _ .vmem, ⟨22, _⟩ => ⟨S1x64, .f32⟩
  | .local _ .vmem, ⟨23, _⟩ => ⟨S64x64, .f32⟩
  | .local _ .vmem, ⟨24, _⟩ => ⟨S1x64, .f32⟩
  | .local _ .vmem, ⟨25, _⟩ => ⟨S64x32, .f32⟩
  | .local _ .vmem, ⟨26, _⟩ => ⟨S1x32, .f32⟩
  | .local _ .vmem, ⟨27, _⟩ => ⟨S5000x32, .f32⟩
  | .local _ .vmem, ⟨28, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg9_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem9_1 : DmaSem sig := 28

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8000x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S96x64_S32x64_0_0 : S96x64.Slices ![0, 0] S32x64
  slices_S96x64_S32x64_32_0 : S96x64.Slices ![32, 0] S32x64
  slices_S96x64_S32x64_64_0 : S96x64.Slices ![64, 0] S32x64
  shapeCasts_S64_S1x64 : S64.ShapeCasts S1x64
  shapeCasts_S32_S1x32 : S32.ShapeCasts S1x32
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  bcast_S_S100000x32 : S_.BroadcastsInDim S100000x32 (![] : Fin 0 → Fin S100000x32.rank)
  slices_S64x64_S32x64_0_0 : S64x64.Slices ![0, 0] S32x64
  slices_S64x64_S32x64_32_0 : S64x64.Slices ![32, 0] S32x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  broadcasts_S1x64_S5000x64 : S1x64.Broadcasts S5000x64
  broadcasts_S1x32_S5000x32 : S1x32.Broadcasts S5000x32
  gather_S100000x32_S1600000x1_S1600000x32_1_0_n_n_0_1_132_wf : GatherDims.WF S100000x32 S1600000x1 S1600000x32 [1] [0] [] [0] [] 1 ![1, 32]
  dot_S8000x32_S32x64_S8000x64_1_0_0_1_n_n_wf : DotDims.WF S8000x32 S32x64 S8000x64 [1] [0] [0] [1] [] []
  dot_S8000x64_S64x64_S8000x64_1_0_0_1_n_n_wf : DotDims.WF S8000x64 S64x64 S8000x64 [1] [0] [0] [1] [] []
  dot_S8000x64_S64x32_S8000x32_1_0_0_1_n_n_wf : DotDims.WF S8000x64 S64x32 S8000x32 [1] [0] [0] [1] [] []
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S1600000x32.size a
  hwx0_0 : ∀ i : grid0.Coords, EltTy.bits .bf16 = 32 ∨ (Rect.block (s := S1600000x32) S8000x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S1600000x32.size a
  hwx0_1 : ∀ i : grid0.Coords, EltTy.bits .bf16 = 32 ∨ (Rect.block (s := S1600000x32) S8000x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S1600000x32.size a
  hwx0_2 : ∀ i : grid0.Coords, EltTy.bits .f32 = 32 ∨ (Rect.block (s := S1600000x32) S8000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x32.size a ≤ S64x32.size a
  hwx0_9 : ∀ i : grid0.Coords, EltTy.bits .f32 = 32 ∨ (Rect.block (s := S64x32) S64x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8000x32.size a ≤ S1600000x32.size a
  hwx0_11 : ∀ i : grid0.Coords, EltTy.bits .f32 = 32 ∨ (Rect.block (s := S1600000x32) S8000x32.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x32.size a ≤ S64x32.size a
  hwx1_7 : ∀ i : grid1.Coords, EltTy.bits .f32 = 32 ∨ (Rect.block (s := S64x32) S64x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x32.size a ≤ S100000x32.size a
  hwx1_9 : ∀ i : grid1.Coords, EltTy.bits .f32 = 32 ∨ (Rect.block (s := S100000x32) S5000x32.size (cc1_transform_9 i) (hinb1_9 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v7) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S8000x32.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S64x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v30) S5000x32.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x32 : Shape := ⟨2, ![100000, 32]⟩
abbrev S1600000x32 : Shape := ⟨2, ![1600000, 32]⟩
abbrev S1600000 : Shape := ⟨1, ![1600000]⟩
abbrev S96x64 : Shape := ⟨2, ![96, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩
abbrev S1600000x1 : Shape := ⟨2, ![1600000, 1]⟩
abbrev S1600000x96 : Shape := ⟨2, ![1600000, 96]⟩
abbrev S1600000x64 : Shape := ⟨2, ![1600000, 64]⟩
abbrev S1x64 : Shape := ⟨2, ![1, 64]⟩
abbrev S1x32 : Shape := ⟨2, ![1, 32]⟩
abbrev S100000x64 : Shape := ⟨2, ![100000, 64]⟩

abbrev nBuf : Space → Nat
  | .hbm => 82
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000x32, .f32⟩
  | .hbm, ⟨2, _⟩ => ⟨S1600000, .i32⟩
  | .hbm, ⟨3, _⟩ => ⟨S1600000, .i32⟩
  | .hbm, ⟨4, _⟩ => ⟨S96x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x32, .f32⟩
  | .hbm, ⟨15, _⟩ => ⟨S32, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x32, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x32, .f32⟩
  | .hbm, ⟨34, _⟩ => ⟨S1600000x96, .f32⟩
  | .hbm, ⟨35, _⟩ => ⟨S1600000x64, .f32⟩
  | .hbm, ⟨36, _⟩ => ⟨S1x64, .f32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S1600000x64, .f32⟩
  | .hbm, ⟨41, _⟩ => ⟨S1600000x64, .f32⟩
  | .hbm, ⟨42, _⟩ => ⟨S1600000x64, .f32⟩
  | .hbm, ⟨43, _⟩ => ⟨S1x64, .f32⟩
  | .hbm, ⟨44, _⟩ => ⟨S1600000x64, .f32⟩
  | .hbm, ⟨45, _⟩ => ⟨S1600000x64, .f32⟩
  | .hbm, ⟨46, _⟩ => ⟨S_, .f32⟩
  | .hbm, ⟨47, _⟩ => ⟨S1600000x64, .f32⟩
  | .hbm, ⟨48, _⟩ => ⟨S1600000x64, .f32⟩
  | .hbm, ⟨49, _⟩ => ⟨S1600000x32, .f32⟩
  | .hbm, ⟨50, _⟩ => ⟨S1x32, .f32⟩
  | .hbm, ⟨51, _⟩ => ⟨S1600000x32, .f32⟩
  | .hbm, ⟨52, _⟩ => ⟨S1600000x32, .f32⟩
  | .hbm, ⟨53, _⟩ => ⟨S_, .f32⟩
  | .hbm, ⟨54, _⟩ => ⟨S1600000x32, .f32⟩
  | .hbm, ⟨55, _⟩ => ⟨S1600000x32, .f32⟩
  | .hbm, ⟨56, _⟩ => ⟨S_, .f32⟩
  | .hbm, ⟨57, _⟩ => ⟨S100000x32, .f32⟩
  | .hbm, ⟨58, _⟩ => ⟨S1600000x1, .i32⟩
  | .hbm, ⟨59, _⟩ => ⟨S100000x32, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S100000x32, .f32⟩
  | .hbm, ⟨76, _⟩ => ⟨S1x32, .f32⟩
  | .hbm, ⟨77, _⟩ => ⟨S100000x32, .f32⟩
  | .hbm, ⟨78, _⟩ => ⟨S100000x32, .f32⟩
  | .hbm, ⟨79, _⟩ => ⟨S_, .f32⟩
  | .hbm, ⟨80, _⟩ => ⟨S100000x32, .f32⟩
  | .hbm, ⟨81, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call2_cst : Ref sig .tc := ⟨.hbm, 53, rfl⟩
abbrev main_call2_v0 : Ref sig .tc := ⟨.hbm, 54, rfl⟩
abbrev main_v29 : Ref sig .tc := ⟨.hbm, 55, rfl⟩
abbrev main_cst : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_call3_cst : Ref sig .tc := ⟨.hbm, 65, rfl⟩
abbrev main_call3_v0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call4_cst : Ref sig .tc := ⟨.hbm, 72, rfl⟩
abbrev main_call4_v0 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_call5_cst : Ref sig .tc := ⟨.hbm, 79, rfl⟩
abbrev main_call5_v0 : Ref sig .tc := ⟨.hbm, 80, rfl⟩
abbrev main_v48 : Ref sig .tc := ⟨.hbm, 81, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x32_S1600000x96_d1 : Shape.Concatenates [S1600000x32, S1600000x32, S1600000x32] S1600000x96 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S100000x32 : S_.BroadcastsInDim S100000x32 (![] : Fin 0 → Fin S100000x32.rank)
  concatenates_S100000x32_S100000x32_S100000x64_d1 : Shape.Concatenates [S100000x32, S100000x32] S100000x64 1
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x32_S100000x32_0_1 : S1x32.BroadcastsInDim S100000x32 (![0, 1] : Fin 2 → Fin S100000x32.rank)
  gather_S100000x32_S1600000x1_S1600000x32_1_0_n_n_0_1_132_wf : GatherDims.WF S100000x32 S1600000x1 S1600000x32 [1] [0] [] [0] [] 1 ![1, 32]
  dot_S1600000x96_S96x64_S1600000x64_1_0_0_1_n_n_wf : DotDims.WF S1600000x96 S96x64 S1600000x64 [1] [0] [0] [1] [] []
  dot_S1600000x64_S64x64_S1600000x64_1_0_0_1_n_n_wf : DotDims.WF S1600000x64 S64x64 S1600000x64 [1] [0] [0] [1] [] []
  dot_S1600000x64_S64x32_S1600000x32_1_0_0_1_n_n_wf : DotDims.WF S1600000x64 S64x32 S1600000x32 [1] [0] [0] [1] [] []
  scatter_S100000x32_S1600000x1_S1600000x32_1_0_0_1_wf : ScatterDims.WF S100000x32 S1600000x1 S1600000x32 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x96_S96x64_S1600000x64_1_0_0_1_n_n : DotDims S1600000x96 S96x64 S1600000x64 where
  lhsContracting := [1]
  rhsContracting := [0]
  lhsNonContracting := [0]
  rhsNonContracting := [1]
  lhsBatch := []
  rhsBatch := []
  wf := dot_S1600000x96_S96x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x32_S1600000x32_1_0_0_1_n_n : DotDims S1600000x64 S64x32 S1600000x32 where
  lhsContracting := [1]
  rhsContracting := [0]
  lhsNonContracting := [0]
  rhsNonContracting := [1]
  lhsBatch := []
  rhsBatch := []
  wf := dot_S1600000x64_S64x32_S1600000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelDots.lean ====
/-
  A block of rows times a small matrix, read at one entry.

  Both perceptrons multiply a block of rows (8000 edges, or 5000 nodes, at a time) by a 32×64, a 64×64
  and a 64×32 matrix, each product accumulated into zero.  On the extended reals entry (p, q) of such a
  product is the plain sum over the contracted axis of row p of the left factor against column q of the
  right factor; the six lemmas below say so, one per pair of extents.
-/
import proofs.«100135_j64424509440353_2_alg».proof.Proof.Gen.KernelIdeal
import Idealize.ShloMosaic.Lib.ValueIdx
import Idealize.ShloMosaic.PureOps.Ideal.Laws

noncomputable section

namespace Cert.KernelIdeal.Dots

open Cert.KernelIdeal Idealize.ShloMosaic Idealize.ShloMosaic.ValueIdx

/-- Entry (p, q) of a 8000×32 block times a 32×64 matrix, accumulated into zero: the sum over the
    32 contracted positions `k` of the left factor's entry (p, k) times the right factor's entry (k, q). -/
theorem mm_edge1 {φ₁ φ₂ : FTy} (l : FVec Ideal S8000x32 φ₁) (r : FVec Ideal S32x64 φ₂) (p : Fin 8000) (q : Fin 64) :
    matmul dot_S8000x32_S32x64_S8000x64_1_0_0_1_n_n none l r (constant (F := Ideal) S8000x64 .f32 0x00000000#32) (ix2 p q)
      = ∑ k : Fin 32, l (ix2 p k) * r (ix2 k q) := by
  show FloatOps.matmul dot_S8000x32_S32x64_S8000x64_1_0_0_1_n_n none l r (constant (F := Ideal) S8000x64 .f32 0x00000000#32) (ix2 p q) = _
  rw [Ideal.matmul_constant_zero_apply, ← Equiv.sum_comp (ValueIdx.contrEquiv1 dot_S8000x32_S32x64_S8000x64_1_0_0_1_n_n 32 rfl rfl).symm]
  refine Finset.sum_congr rfl fun k _ => ?_
  have hk := ValueIdx.contrEquiv1_symm_val dot_S8000x32_S32x64_S8000x64_1_0_0_1_n_n 32 rfl rfl k
  have el : dot_S8000x32_S32x64_S8000x64_1_0_0_1_n_n.lhsIdx (ix2 p q) ((ValueIdx.contrEquiv1 dot_S8000x32_S32x64_S8000x64_1_0_0_1_n_n 32 rfl rfl).symm k) = ix2 p k := funext fun a => Fin.ext (by
    match a with
    | ⟨0, _⟩ =>
      show (dot_S8000x32_S32x64_S8000x64_1_0_0_1_n_n.lhsIdx (ix2 p q) ((ValueIdx.contrEquiv1 dot_S8000x32_S32x64_S8000x64_1_0_0_1_n_n 32 rfl rfl).symm k) 0).val = p.val
      unfold DotDims.lhsIdx
      rw [dif_neg (show ¬(0 : Fin S8000x32.rank) ∈ dot_S8000x32_S32x64_S8000x64_1_0_0_1_n_n.lhsBatch by decide), dif_pos (show (0 : Fin S8000x32.rank) ∈ dot_S8000x32_S32x64_S8000x64_1_0_0_1_n_n.lhsNonContracting by decide)]
      rfl
    | ⟨1, _⟩ => exact (dot_S8000x32_S32x64_S8000x64_1_0_0_1_n_n.lhsIdx_val_of_single rfl (ix2 p q) _).trans hk)
  have er : dot_S8000x32_S32x64_S8000x64_1_0_0_1_n_n.rhsIdx (ix2 p q) ((ValueIdx.contrEquiv1 dot_S8000x32_S32x64_S8000x64_1_0_0_1_n_n 32 rfl rfl).symm k) = ix2 k q := funext fun a => Fin.ext (by
    match a with
    | ⟨0, _⟩ => exact (dot_S8000x32_S32x64_S8000x64_1_0_0_1_n_n.rhsIdx_val_of_single rfl (ix2 p q) _).trans hk
    | ⟨1, _⟩ =>
      show (dot_S8000x32_S32x64_S8000x64_1_0_0_1_n_n.rhsIdx (ix2 p q) ((ValueIdx.contrEquiv1 dot_S8000x32_S32x64_S8000x64_1_0_0_1_n_n 32 rfl rfl).symm k) 1).val = q.val
      unfold DotDims.rhsIdx
      rw [dif_neg (show ¬(1 : Fin S32x64.rank) ∈ dot_S8000x32_S32x64_S8000x64_1_0_0_1_n_n.rhsBatch by decide), dif_pos (show (1 : Fin S32x64.rank) ∈ dot_S8000x32_S32x64_S8000x64_1_0_0_1_n_n.rhsNonContracting by decide)]
      rfl)
  rw [el, er]

/-- Entry (p, q) of a 8000×64 block times a 64×64 matrix, accumulated into zero: the sum over the
    64 contracted positions `k` of the left factor's entry (p, k) times the right factor's entry (k, q). -/
theorem mm_edge2 {φ₁ φ₂ : FTy} (l : FVec Ideal S8000x64 φ₁) (r : FVec Ideal S64x64 φ₂) (p : Fin 8000) (q : Fin 64) :
    matmul dot_S8000x64_S64x64_S8000x64_1_0_0_1_n_n none l r (constant (F := Ideal) S8000x64 .f32 0x00000000#32) (ix2 p q)
      = ∑ k : Fin 64, l (ix2 p k) * r (ix2 k q) := by
  show FloatOps.matmul dot_S8000x64_S64x64_S8000x64_1_0_0_1_n_n none l r (constant (F := Ideal) S8000x64 .f32 0x00000000#32) (ix2 p q) = _
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ =>
      show (dot_S8000x64_S64x64_S8000x64_1_0_0_1_n_n.lhsIdx (ix2 p q) ((ValueIdx.contrEquiv1 dot_S8000x64_S64x64_S8000x64_1_0_0_1_n_n 64 rfl rfl).symm k) 0).val = p.val
      unfold DotDims.lhsIdx
      rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
      rfl
    | ⟨1, _⟩ => exact (dot_S8000x64_S64x64_S8000x64_1_0_0_1_n_n.lhsIdx_val_of_single rfl (ix2 p q) _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (dot_S8000x64_S64x64_S8000x64_1_0_0_1_n_n.rhsIdx_val_of_single rfl (ix2 p q) _).trans hk
    | ⟨1, _⟩ =>
      show (dot_S8000x64_S64x64_S8000x64_1_0_0_1_n_n.rhsIdx (ix2 p q) ((ValueIdx.contrEquiv1 dot_S8000x64_S64x64_S8000x64_1_0_0_1_n_n 64 rfl rfl).symm k) 1).val = q.val
      unfold DotDims.rhsIdx
      rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
      rfl)
  rw [el, er]

/-- Entry (p, q) of a 8000×64 block times a 64×32 matrix, accumulated into zero: the sum over the
    64 contracted positions `k` of the left factor's entry (p, k) times the right factor's entry (k, q). -/
theorem mm_edge3 {φ₁ φ₂ : FTy} (l : FVec Ideal S8000x64 φ₁) (r : FVec Ideal S64x32 φ₂) (p : Fin 8000) (q : Fin 32) :
    matmul dot_S8000x64_S64x32_S8000x32_1_0_0_1_n_n none l r (constant (F := Ideal) S8000x32 .f32 0x00000000#32) (ix2 p q)
      = ∑ k : Fin 64, l (ix2 p k) * r (ix2 k q) := by
  show FloatOps.matmul dot_S8000x64_S64x32_S8000x32_1_0_0_1_n_n none l r (constant (F := Ideal) S8000x32 .f32 0x00000000#32) (ix2 p q) = _
  rw [Ideal.matmul_constant_zero_apply, ← Equiv.sum_comp (ValueIdx.contrEquiv1 dot_S8000x64_S64x32_S8000x32_1_0_0_1_n_n 64 rfl rfl).symm]
  refine Finset.sum_congr rfl fun k _ => ?_
  have hk := ValueIdx.contrEquiv1_symm_val dot_S8000x64_S64x32_S8000x32_1_0_0_1_n_n 64 rfl rfl k
  have el : dot_S8000x64_S64x32_S8000x32_1_0_0_1_n_n.lhsIdx (ix2 p q) ((ValueIdx.contrEquiv1 dot_S8000x64_S64x32_S8000x32_1_0_0_1_n_n 64 rfl rfl).symm k) = ix2 p k := funext fun a => Fin.ext (by
    match a with
    | ⟨0, _⟩ =>
      show (dot_S8000x64_S64x32_S8000x32_1_0_0_1_n_n.lhsIdx (ix2 p q) ((ValueIdx.contrEquiv1 dot_S8000x64_S64x32_S8000x32_1_0_0_1_n_n 64 rfl rfl).symm k) 0).val = p.val
      unfold DotDims.lhsIdx
      rw [dif_neg (show ¬(0 : Fin S8000x64.rank) ∈ dot_S8000x64_S64x32_S8000x32_1_0_0_1_n_n.lhsBatch by decide), dif_pos (show (0 : Fin S8000x64.rank) ∈ dot_S8000x64_S64x32_S8000x32_1_0_0_1_n_n.lhsNonContracting by decide)]
      rfl
    | ⟨1, _⟩ => exact (dot_S8000x64_S64x32_S8000x32_1_0_0_1_n_n.lhsIdx_val_of_single rfl (ix2 p q) _).trans hk)
  have er : dot_S8000x64_S64x32_S8000x32_1_0_0_1_n_n.rhsIdx (ix2 p q) ((ValueIdx.contrEquiv1 dot_S8000x64_S64x32_S8000x32_1_0_0_1_n_n 64 rfl rfl).symm k) = ix2 k q := funext fun a => Fin.ext (by
    match a with
    | ⟨0, _⟩ => exact (dot_S8000x64_S64x32_S8000x32_1_0_0_1_n_n.rhsIdx_val_of_single rfl (ix2 p q) _).trans hk
    | ⟨1, _⟩ =>
      show (dot_S8000x64_S64x32_S8000x32_1_0_0_1_n_n.rhsIdx (ix2 p q) ((ValueIdx.contrEquiv1 dot_S8000x64_S64x32_S8000x32_1_0_0_1_n_n 64 rfl rfl).symm k) 1).val = q.val
      unfold DotDims.rhsIdx
      rw [dif_neg (show ¬(1 : Fin S64x32.rank) ∈ dot_S8000x64_S64x32_S8000x32_1_0_0_1_n_n.rhsBatch by decide), dif_pos (show (1 : Fin S64x32.rank) ∈ dot_S8000x64_S64x32_S8000x32_1_0_0_1_n_n.rhsNonContracting by decide)]
      rfl)
  rw [el, er]

/-- Entry (p, q) of a 5000×32 block times a 32×64 matrix, accumulated into zero: the sum over the
    32 contracted positions `k` of the left factor's entry (p, k) times the right factor's entry (k, q). -/
theorem mm_node1 {φ₁ φ₂ : FTy} (l : FVec Ideal S5000x32 φ₁) (r : FVec Ideal S32x64 φ₂) (p : Fin 5000) (q : Fin 64) :
    matmul dot_S5000x32_S32x64_S5000x64_1_0_0_1_n_n none l r (constant (F := Ideal) S5000x64 .f32 0x00000000#32) (ix2 p q)
      = ∑ k : Fin 32, l (ix2 p k) * r (ix2 k q) := by
  show FloatOps.matmul dot_S5000x32_S32x64_S5000x64_1_0_0_1_n_n none l r (constant (F := Ideal) S5000x64 .f32 0x00000000#32) (ix2 p q) = _
  rw [Ideal.matmul_constant_zero_apply, ← Equiv.sum_comp (ValueIdx.contrEquiv1 dot_S5000x32_S32x64_S5000x64_1_0_0_1_n_n 32 rfl rfl).symm]
  refine Finset.sum_congr rfl fun k _ => ?_
  have hk := ValueIdx.contrEquiv1_symm_val dot_S5000x32_S32x64_S5000x64_1_0_0_1_n_n 32 rfl rfl k
  have el : dot_S5000x32_S32x64_S5000x64_1_0_0_1_n_n.lhsIdx (ix2 p q) ((ValueIdx.contrEquiv1 dot_S5000x32_S32x64_S5000x64_1_0_0_1_n_n 32 rfl rfl).symm k) = ix2 p k := funext fun a => Fin.ext (by
    match a with
    | ⟨0, _⟩ =>
      show (dot_S5000x32_S32x64_S5000x64_1_0_0_1_n_n.lhsIdx (ix2 p q) ((ValueIdx.contrEquiv1 dot_S5000x32_S32x64_S5000x64_1_0_0_1_n_n 32 rfl rfl).symm k) 0).val = p.val
      unfold DotDims.lhsIdx
      rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
      rfl
    | ⟨1, _⟩ => exact (dot_S5000x32_S32x64_S5000x64_1_0_0_1_n_n.lhsIdx_val_of_single rfl (ix2 p q) _).trans hk)
  have er : dot_S5000x32_S32x64_S5000x64_1_0_0_1_n_n.rhsIdx (ix2 p q) ((ValueIdx.contrEquiv1 dot_S5000x32_S32x64_S5000x64_1_0_0_1_n_n 32 rfl rfl).symm k) = ix2 k q := funext fun a => Fin.ext (by
    match a with
    | ⟨0, _⟩ => exact (dot_S5000x32_S32x64_S5000x64_1_0_0_1_n_n.rhsIdx_val_of_single rfl (ix2 p q) _).trans hk
    | ⟨1, _⟩ =>
      show (dot_S5000x32_S32x64_S5000x64_1_0_0_1_n_n.rhsIdx (ix2 p q) ((ValueIdx.contrEquiv1 dot_S5000x32_S32x64_S5000x64_1_0_0_1_n_n 32 rfl rfl).symm k) 1).val = q.val
      unfold DotDims.rhsIdx
      rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
      rfl)
  rw [el, er]

/-- Entry (p, q) of a 5000×64 block times a 64×64 matrix, accumulated into zero: the sum over the
    64 contracted positions `k` of the left factor's entry (p, k) times the right factor's entry (k, q). -/
theorem mm_node2 {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  show FloatOps.matmul dot_S5000x64_S64x64_S5000x64_1_0_0_1_n_n none l r (constant (F := Ideal) S5000x64 .f32 0x00000000#32) (ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ =>
      show (dot_S5000x64_S64x64_S5000x64_1_0_0_1_n_n.lhsIdx (ix2 p q) ((ValueIdx.contrEquiv1 dot_S5000x64_S64x64_S5000x64_1_0_0_1_n_n 64 rfl rfl).symm k) 0).val = p.val
      unfold DotDims.lhsIdx
      rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
      rfl
    | ⟨1, _⟩ => exact (dot_S5000x64_S64x64_S5000x64_1_0_0_1_n_n.lhsIdx_val_of_single rfl (ix2 p q) _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl (ix2 p q) _).trans hk
    | ⟨1, _⟩ =>
      show (dot_S5000x64_S64x64_S5000x64_1_0_0_1_n_n.rhsIdx (ix2 p q) ((ValueIdx.contrEquiv1 dot_S5000x64_S64x64_S5000x64_1_0_0_1_n_n 64 rfl rfl).symm k) 1).val = q.val
      unfold DotDims.rhsIdx
      rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
      rfl)
  rw [el, er]

/-- Entry (p, q) of a 5000×64 block times a 64×32 matrix, accumulated into zero: the sum over the
    64 contracted positions `k` of the left factor's entry (p, k) times the right factor's entry (k, q). -/
theorem mm_node3 {φ₁ φ₂ : FTy} (l : FVec Ideal S5000x64 φ₁) (r : FVec Ideal S64x32 φ₂) (p : Fin 5000) (q : Fin 32) :
    matmul dot_S5000x64_S64x32_S5000x32_1_0_0_1_n_n none l r (constant (F := Ideal) S5000x32 .f32 0x00000000#32) (ix2 p q)
      = ∑ k : Fin 64, l (ix2 p k) * r (ix2 k q) := by
  show FloatOps.matmul dot_S5000x64_S64x32_S5000x32_1_0_0_1_n_n none l r (constant (F := Ideal) S5000x32 .f32 0x00000000#32) (ix2 p q) = _
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p q) ((ValueIdx.contrEquiv1 dot_S5000x64_S64x32_S5000x32_1_0_0_1_n_n 64 rfl rfl).symm k) = ix2 p k := funext fun a => Fin.ext (by
    match a with
    | ⟨0, _⟩ =>
      show (dot_S5000x64_S64x32_S5000x32_1_0_0_1_n_n.lhsIdx (ix2 p q) ((ValueIdx.contrEquiv1 dot_S5000x64_S64x32_S5000x32_1_0_0_1_n_n 64 rfl rfl).symm k) 0).val = p.val
      unfold DotDims.lhsIdx
      rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
      rfl
    | ⟨1, _⟩ => exact (dot_S5000x64_S64x32_S5000x32_1_0_0_1_n_n.lhsIdx_val_of_single rfl (ix2 p q) _).trans hk)
  have er : dot_S5000x64_S64x32_S5000x32_1_0_0_1_n_n.rhsIdx (ix2 p q) ((ValueIdx.contrEquiv1 dot_S5000x64_S64x32_S5000x32_1_0_0_1_n_n 64 rfl rfl).symm k) = ix2 k q := funext fun a => Fin.ext (by
    match a with
    | ⟨0, _⟩ => exact (dot_S5000x64_S64x32_S5000x32_1_0_0_1_n_n.rhsIdx_val_of_single rfl (ix2 p q) _).trans hk
    | ⟨1, _⟩ =>
      show (dot_S5000x64_S64x32_S5000x32_1_0_0_1_n_n.rhsIdx (ix2 p q) ((ValueIdx.contrEquiv1 dot_S5000x64_S64x32_S5000x32_1_0_0_1_n_n 64 rfl rfl).symm k) 1).val = q.val
      unfold DotDims.rhsIdx
      rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
      rfl)
  rw [el, er]

end Cert.KernelIdeal.Dots

end
-- ==== Proof.MlpSpec.lean ====
/-
  Message passing on a graph, one layer, as plain functions on the extended reals.

  A three-layer perceptron acts on each ROW: a row of layer one's pre-activations `h` goes through
  `max · 0`, a 64×64 linear map plus bias, `max · 0`, a 64×32 linear map plus bias, and `max · 0`
  (`tail`).  Layer one's pre-activation is a linear map of the row's inputs laid side by side.
  For an edge the inputs are the source node's row, the destination node's row and the edge's own
  row (32 + 32 + 32 = 96 entries against a 96×64 matrix); for a node they are the node's row and the
  sum of the messages that arrive at it (32 + 32 = 64 entries against a 64×64 matrix).

  The contraction over the joined axis can be written in two ways: as ONE sum over all 96 (or 64)
  positions of the joined row, or as a sum of three (or two) sums of 32 terms, one per run of the
  joined axis, each against the matching band of rows of the matrix.  They are the same number in any
  commutative additive monoid — in particular on the extended reals, with no finiteness needed —
  because a sum over `Fin (a + b)` is the sum over the first `a` positions plus the sum over the last
  `b` (`sum_three`, `sum_two`).
-/
import Mathlib.Algebra.BigOperators.Fin
import Mathlib.Data.EReal.Basic

noncomputable section

namespace Mpnn

/-- A sum over 96 positions is the sum over positions 0–31, plus the sum over 32–63, plus the sum
    over 64–95. -/
theorem sum_three {M : Type*} [AddCommMonoid M] (f : Fin 96 → M) :
    ∑ k : Fin 96, f k
      = (∑ a : Fin 32, f ⟨a.val, by omega⟩ + ∑ a : Fin 32, f ⟨32 + a.val, by omega⟩)
        + ∑ a : Fin 32, f ⟨64 + a.val, by omega⟩ := by
  have h1 := Fin.sum_univ_add (a := 64) (b := 32) f
  have h2 := Fin.sum_univ_add (a := 32) (b := 32) (fun i : Fin (32 + 32) => f (Fin.castAdd 32 i))
  refine h1.trans ?_
  refine congrArg₂ (· + ·) (h2.trans ?_) ?_
  · exact congrArg₂ (· + ·) (Finset.sum_congr rfl fun a _ => congrArg f (Fin.ext rfl))
      (Finset.sum_congr rfl fun a _ => congrArg f (Fin.ext rfl))
  · exact Finset.sum_congr rfl fun a _ => congrArg f (Fin.ext rfl)

/-- A sum over 64 positions is the sum over positions 0–31 plus the sum over 32–63. -/
theorem sum_two {M : Type*} [AddCommMonoid M] (f : Fin 64 → M) :
    ∑ k : Fin 64, f k = ∑ a : Fin 32, f ⟨a.val, by omega⟩ + ∑ a : Fin 32, f ⟨32 + a.val, by omega⟩ := by
  have h1 := Fin.sum_univ_add (a := 32) (b := 32) f
  refine h1.trans ?_
  exact congrArg₂ (· + ·) (Finset.sum_congr rfl fun a _ => congrArg f (Fin.ext rfl))
    (Finset.sum_congr rfl fun a _ => congrArg f (Fin.ext rfl))

/-- The activation: the larger of the number and zero. -/
def relu (x : EReal) : EReal := max x 0

/-- Layers two and three on one row, from layer one's pre-activations `h`: entry `q` of
    `relu (relu (relu h · W2 + b2) · W3 + b3)`. -/
def tail (h : Fin 64 → EReal) (W2 : Fin 64 → Fin 64 → EReal) (b2 : Fin 64 → EReal)
    (W3 : Fin 64 → Fin 32 → EReal) (b3 : Fin 32 → EReal) (q : Fin 32) : EReal :=
  relu ((∑ k : Fin 64, relu ((∑ k' : Fin 64, relu (h k') * W2 k' k) + b2 k) * W3 k q) + b3 q)

/-- Layer one's pre-activation for an edge, the joined axis in its three runs: the source row against
    rows 0–31 of the matrix, the destination row against rows 32–63, the edge row against rows 64–95,
    plus the bias. -/
def pre3 (s d e : Fin 32 → EReal) (ws wd we : Fin 32 → Fin 64 → EReal) (b : Fin 64 → EReal)
    (j : Fin 64) : EReal :=
  ((∑ a : Fin 32, s a * ws a j + ∑ a : Fin 32, d a * wd a j) + ∑ a : Fin 32, e a * we a j) + b j

/-- Layer one's pre-activation for a node, the joined axis in its two runs: the node's row against
    rows 0–31 of the matrix, the aggregated messages against rows 32–63, plus the bias. -/
def pre2 (n g : Fin 32 → EReal) (wn wg : Fin 32 → Fin 64 → EReal) (b : Fin 64 → EReal)
    (j : Fin 64) : EReal :=
  (∑ a : Fin 32, n a * wn a j + ∑ a : Fin 32, g a * wg a j) + b j

/-- ONE contraction over the 96 joined positions is the three-run form, when the joined row `x` is
    the three rows side by side and the bands are the matrix's rows 0–31, 32–63, 64–95. -/
theorem joined_three (x : Fin 96 → EReal) (W : Fin 96 → Fin 64 → EReal) (b : Fin 64 → EReal) (j : Fin 64) :
    (∑ k : Fin 96, x k * W k j) + b j
      = pre3 (fun a => x ⟨a.val, by omega⟩) (fun a => x ⟨32 + a.val, by omega⟩) (fun a => x ⟨64 + a.val, by omega⟩)
          (fun a j => W ⟨a.val, by omega⟩ j) (fun a j => W ⟨32 + a.val, by omega⟩ j)
          (fun a j => W ⟨64 + a.val, by omega⟩ j) b j := by
  unfold pre3
  rw [sum_three (fun k => x k * W k j)]

/-- ONE contraction over the 64 joined positions is the two-run form. -/
theorem joined_two (x : Fin 64 → EReal) (W : Fin 64 → Fin 64 → EReal) (b : Fin 64 → EReal) (j : Fin 64) :
    (∑ k : Fin 64, x k * W k j) + b j
      = pre2 (fun a => x ⟨a.val, by omega⟩) (fun a => x ⟨32 + a.val, by omega⟩)
          (fun a j => W ⟨a.val, by omega⟩ j) (fun a j => W ⟨32 + a.val, by omega⟩ j) b j := by
  unfold pre2
  rw [sum_two (fun k => x k * W k j)]

end Mpnn

end
-- ==== Proof.MpnnArrays.lean ====
/-
  The two perceptrons on arrays.

  `edgeRow` is row `r` of a stack of edges through the edge perceptron: the row's three inputs (source
  node's features, destination node's features, the edge's own features) against the three bands of the
  first matrix, then layers two and three.  `nodeRow` is the same for a stack of nodes, with two inputs
  (the node's features, the messages summed at it).  The number of rows in the stack is a parameter: the
  same function describes a block of 8000 edges and the whole array of 1,600,000.  The biases are rows
  of a one-row matrix.  `edgeArr` and `nodeArr` are the whole result arrays, entry by entry.
-/
import proofs.«100135_j64424509440353_2_alg».proof.Proof.MlpSpec
import Idealize.ShloMosaic.Lib.ValueIdx

noncomputable section

namespace Mpnn

open Idealize.ShloMosaic Idealize.ShloMosaic.ValueIdx

/-- An `n × k` array of extended reals. -/
abbrev Arr (n k : ℕ) : Type := (⟨2, ![n, k]⟩ : Shape).Idx → EReal

/-- Entry `q` of row `r` of the edge perceptron's result on a stack of `n` edges. -/
def edgeRow {n : ℕ} (s d e : Arr n 32) (ws wd we : Arr 32 64) (b1 : Arr 1 64) (W2 : Arr 64 64) (b2 : Arr 1 64)
    (W3 : Arr 64 32) (b3 : Arr 1 32) (r : Fin n) (q : Fin 32) : EReal :=
  tail (pre3 (fun a => s (ix2 r a)) (fun a => d (ix2 r a)) (fun a => e (ix2 r a))
      (fun a j => ws (ix2 a j)) (fun a j => wd (ix2 a j)) (fun a j => we (ix2 a j)) (fun j => b1 (ix2 (0 : Fin 1) j)))
    (fun k j => W2 (ix2 k j)) (fun j => b2 (ix2 (0 : Fin 1) j)) (fun k j => W3 (ix2 k j)) (fun j => b3 (ix2 (0 : Fin 1) j)) q

/-- Entry `q` of row `r` of the node perceptron's result on a stack of `n` nodes. -/
def nodeRow {n : ℕ} (x g : Arr n 32) (wx wg : Arr 32 64) (b1 : Arr 1 64) (W2 : Arr 64 64) (b2 : Arr 1 64)
    (W3 : Arr 64 32) (b3 : Arr 1 32) (r : Fin n) (q : Fin 32) : EReal :=
  tail (pre2 (fun a => x (ix2 r a)) (fun a => g (ix2 r a))
      (fun a j => wx (ix2 a j)) (fun a j => wg (ix2 a j)) (fun j => b1 (ix2 (0 : Fin 1) j)))
    (fun k j => W2 (ix2 k j)) (fun j => b2 (ix2 (0 : Fin 1) j)) (fun k j => W3 (ix2 k j)) (fun j => b3 (ix2 (0 : Fin 1) j)) q

/-- The edge result: every edge's row through the edge perceptron. -/
def edgeArr (s d e : Arr 1600000 32) (ws wd we : Arr 32 64) (b1 : Arr 1 64) (W2 : Arr 64 64) (b2 : Arr 1 64)
    (W3 : Arr 64 32) (b3 : Arr 1 32) : Arr 1600000 32 :=
  fun i => edgeRow s d e ws wd we b1 W2 b2 W3 b3 (i 0) (i 1)

/-- The node result: every node's row through the node perceptron. -/
def nodeArr (x g : Arr 100000 32) (wx wg : Arr 32 64) (b1 : Arr 1 64) (W2 : Arr 64 64) (b2 : Arr 1 64)
    (W3 : Arr 64 32) (b3 : Arr 1 32) : Arr 100000 32 :=
  fun i => nodeRow x g wx wg b1 W2 b2 W3 b3 (i 0) (i 1)

theorem edgeArr_ix2 (s d e : Arr 1600000 32) (ws wd we : Arr 32 64) (b1 : Arr 1 64) (W2 : Arr 64 64) (b2 : Arr 1 64)
    (W3 : Arr 64 32) (b3 : Arr 1 32) (r : Fin 1600000) (q : Fin 32) :
    edgeArr s d e ws wd we b1 W2 b2 W3 b3 (ix2 r q) = edgeRow s d e ws wd we b1 W2 b2 W3 b3 r q := rfl

theorem nodeArr_ix2 (x g : Arr 100000 32) (wx wg : Arr 32 64) (b1 : Arr 1 64) (W2 : Arr 64 64) (b2 : Arr 1 64)
    (W3 : Arr 64 32) (b3 : Arr 1 32) (r : Fin 100000) (q : Fin 32) :
    nodeArr x g wx wg b1 W2 b2 W3 b3 (ix2 r q) = nodeRow x g wx wg b1 W2 b2 W3 b3 r q := rfl

/-- The edge perceptron's row depends only on that row of its three inputs (and on the matrices and
    biases entry by entry): two stacks that agree on the row give the same result. -/
theorem edgeRow_congr {n n' : ℕ} (s d e : Arr n 32) (s' d' e' : Arr n' 32) (ws wd we ws' wd' we' : Arr 32 64)
    (b1 b1' : Arr 1 64) (W2 W2' : Arr 64 64) (b2 b2' : Arr 1 64) (W3 W3' : Arr 64 32) (b3 b3' : Arr 1 32)
    (r : Fin n) (r' : Fin n') (q : Fin 32)
    (hs : ∀ a, s (ix2 r a) = s' (ix2 r' a)) (hd : ∀ a, d (ix2 r a) = d' (ix2 r' a)) (he : ∀ a, e (ix2 r a) = e' (ix2 r' a))
    (hws : ∀ a j, ws (ix2 a j) = ws' (ix2 a j)) (hwd : ∀ a j, wd (ix2 a j) = wd' (ix2 a j))
    (hwe : ∀ a j, we (ix2 a j) = we' (ix2 a j)) (hb1 : ∀ j, b1 (ix2 (0 : Fin 1) j) = b1' (ix2 (0 : Fin 1) j))
    (hW2 : ∀ k j, W2 (ix2 k j) = W2' (ix2 k j)) (hb2 : ∀ j, b2 (ix2 (0 : Fin 1) j) = b2' (ix2 (0 : Fin 1) j))
    (hW3 : ∀ k j, W3 (ix2 k j) = W3' (ix2 k j)) (hb3 : ∀ j, b3 (ix2 (0 : Fin 1) j) = b3' (ix2 (0 : Fin 1) j)) :
    edgeRow s d e ws wd we b1 W2 b2 W3 b3 r q = edgeRow s' d' e' ws' wd' we' b1' W2' b2' W3' b3' r' q := by
  unfold edgeRow
  simp only [hs, hd, he, hws, hwd, hwe, hb1, hW2, hb2, hW3, hb3]

/-- The node perceptron's row depends only on that row of its two inputs. -/
theorem nodeRow_congr {n n' : ℕ} (x g : Arr n 32) (x' g' : Arr n' 32) (wx wg wx' wg' : Arr 32 64)
    (b1 b1' : Arr 1 64) (W2 W2' : Arr 64 64) (b2 b2' : Arr 1 64) (W3 W3' : Arr 64 32) (b3 b3' : Arr 1 32)
    (r : Fin n) (r' : Fin n') (q : Fin 32)
    (hx : ∀ a, x (ix2 r a) = x' (ix2 r' a)) (hg : ∀ a, g (ix2 r a) = g' (ix2 r' a))
    (hwx : ∀ a j, wx (ix2 a j) = wx' (ix2 a j)) (hwg : ∀ a j, wg (ix2 a j) = wg' (ix2 a j))
    (hb1 : ∀ j, b1 (ix2 (0 : Fin 1) j) = b1' (ix2 (0 : Fin 1) j))
    (hW2 : ∀ k j, W2 (ix2 k j) = W2' (ix2 k j)) (hb2 : ∀ j, b2 (ix2 (0 : Fin 1) j) = b2' (ix2 (0 : Fin 1) j))
    (hW3 : ∀ k j, W3 (ix2 k j) = W3' (ix2 k j)) (hb3 : ∀ j, b3 (ix2 (0 : Fin 1) j) = b3' (ix2 (0 : Fin 1) j)) :
    nodeRow x g wx wg b1 W2 b2 W3 b3 r q = nodeRow x' g' wx' wg' b1' W2' b2' W3' b3' r' q := by
  unfold nodeRow
  simp only [hx, hg, hwx, hwg, hb1, hW2, hb2, hW3, hb3]

end Mpnn

end
-- ==== Proof.KernelPayload.lean ====
/-
  What each perceptron's body stores, read at one entry.

  The edge body takes a block of 8000 edges: the gathered source rows, the gathered destination rows,
  the edges' own rows, the three 32×64 bands of the first matrix, and the later matrices and biases.
  It forms the three products, adds them and the bias, takes the larger of each entry and zero, and
  repeats with the 64×64 and the 64×32 matrix.  Narrowing a number to a shorter float format changes
  nothing on the extended reals, a reshape to the same shape is the identity, and a bias row spread
  over the block's rows is the same entry in every row: so entry (p, q) of what the body stores is
  `edgeRow` of the block at row p, column q.  The node body is the same with two inputs and blocks of
  5000 nodes.
-/
import proofs.«100135_j64424509440353_2_alg».proof.Proof.Gen.KernelIdeal.Skeleton
import proofs.«100135_j64424509440353_2_alg».proof.Proof.KernelDots
import proofs.«100135_j64424509440353_2_alg».proof.Proof.MpnnArrays
import Idealize.ShloMosaic.Lib.Pipeline.Value
import Idealize.ShloMosaic.Lib.ValueLayout

noncomputable section

namespace Cert.KernelIdeal.Payload

open Cert.KernelIdeal Cert.KernelIdeal.Gen Idealize.ShloMosaic Idealize.ShloMosaic.ValueIdx

/-- The zero word is the number zero. -/
theorem zero_word : (Scalar.ofBits (F := Ideal) .f32 0x00000000#32 : Ideal .f32) = 0 := Ideal.ofBits_zero_f32

/-- Entry (p, q) of the edge body's stored block is the edge perceptron's row p, column q, of the
    loaded blocks. -/
theorem edge_entry (x0 x1 : FVec Ideal S8000x32 .bf16) (x2 : FVec Ideal S8000x32 .f32) (x3 x4 x5 : FVec Ideal S32x64 .f32)
    (x6 : FVec Ideal S1x64 .f32) (x7 : FVec Ideal S64x64 .f32) (x8 : FVec Ideal S1x64 .f32) (x9 : FVec Ideal S64x32 .f32)
    (x10 : FVec Ideal S1x32 .f32) (p : Fin 8000) (q : Fin 32) :
    k0_pay1 (F := Ideal) (k0_pay2 (F := Ideal) x0 x1 x2 x3 x4 x5 x6 x7 x8) (k0_pay3 (F := Ideal)) x9 x10 (ix2 p q)
      = Mpnn.edgeRow x0 x1 x2 x3 x4 x5 x6 x7 x8 x9 x10 p q := by
  unfold Mpnn.edgeRow Mpnn.tail Mpnn.pre3 Mpnn.relu
  unfold k0_pay1 k0_pay2 k0_pay3
  simp only [shapeCast_self, maximumf_apply, addf_apply, truncf_apply, broadcast_apply, Dots.mm_edge1, Dots.mm_edge2,
    Dots.mm_edge3, broadcastTo_1b_ab_apply, zero_word]

/-- Entry (p, q) of the node body's stored block is the node perceptron's row p, column q, of the
    loaded blocks. -/
theorem node_entry (x0 x1 : FVec Ideal S5000x32 .f32) (x2 x3 : FVec Ideal S32x64 .f32)
    (x4 : FVec Ideal S1x64 .f32) (x5 : FVec Ideal S64x64 .f32) (x6 : FVec Ideal S1x64 .f32) (x7 : FVec Ideal S64x32 .f32)
    (x8 : FVec Ideal S1x32 .f32) (p : Fin 5000) (q : Fin 32) :
    k1_pay1 (F := Ideal) (k1_pay2 (F := Ideal) x0 x1 x2 x3 x4 x5 x6 x7) x8 (ix2 p q)
      = Mpnn.nodeRow x0 x1 x2 x3 x4 x5 x6 x7 x8 p q := by
  unfold Mpnn.nodeRow Mpnn.tail Mpnn.pre2 Mpnn.relu
  unfold k1_pay1 k1_pay2
  simp only [shapeCast_self, maximumf_apply, addf_apply, truncf_apply, broadcast_apply, Dots.mm_node1, Dots.mm_node2,
    Dots.mm_node3, broadcastTo_1b_ab_apply, zero_word]

end Cert.KernelIdeal.Payload

end
-- ==== Proof.KernelRegions.lean ====
/-
  Each perceptron's grid, read as a whole-array function.

  A grid point `t` loads block `t` of each row-stacked operand (rows `8000·t … 8000·t + 7999` of the
  gathered node rows and of the edge features; rows `5000·t …` of the node features and of the
  aggregated messages), the whole of every matrix and bias, runs the body, and writes the result block
  back at the same rows.  The body's stored entry (p, q) is the perceptron's row on the block's row p,
  and that row of the block is row `8000·t + p` of the array: so what point `t` writes back is block `t`
  of ONE function of the arrays, the perceptron applied row by row.  The blocks tile the result array
  (row `i` is in block `i / 8000`), hence after the grid the result array is that function.
  Everything is stated at arbitrary contents `V` of the buffers when the grid is entered.
-/
import proofs.«100135_j64424509440353_2_alg».proof.Proof.Gen.KernelIdeal.Frame
import proofs.«100135_j64424509440353_2_alg».proof.Proof.KernelPayload
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-! ## The edge perceptron's grid: 200 blocks of 8000 rows -/

/-- Where each window's block sits at grid point `t`: the three row-stacked operands and the result
    move one block of rows per point; the matrices and biases stay put. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-- Block `t` of a 1600000-row array is its rows `8000·t … 8000·t + 7999`: entry (a, b) of the block is entry (8000·t + a, b) of the array. -/
theorem blk0_0 (c : Dev nD) (t : Fin cfg0.N) (a : Fin 8000) (b : Fin 32) :
    (iblk0 V c 0 t : S8000x32.Idx → EReal) (ix2 a b) = (V c main_v7 : S1600000x32.Idx → EReal) (ix2 (⟨t.val * 8000 + a.val, by have := t.isLt; have := a.isLt; have hN : cfg0.N = 200 := N_0; omega⟩ : Fin 1600000) b) := by
  obtain ⟨i0a, i0b, i1a, i1b, i2a, i2b, i3a, i3b, i4a, i4b, i5a, i5b, i6a, i6b, i7a, i7b, i8a, i8b, i9a, i9b, i10a, i10b, i11a, i11b⟩ := idx0 t
  unfold iblk0
  rw [View.read_apply]
  show (V c main_v7 : S1600000x32.Idx → EReal) _ = (V c main_v7 : S1600000x32.Idx → EReal) _
  refine congrArg (V c main_v7 : S1600000x32.Idx → EReal) (funext fun ax => Fin.ext ?_)
  match ax with
  | ⟨0, _⟩ => show win0_0.index t (0 : Fin 2) * 8000 + 1 * a.val = t.val * 8000 + a.val; rw [i0a]; omega
  | ⟨1, _⟩ => show win0_0.index t (1 : Fin 2) * 32 + 1 * b.val = b.val; rw [i0b]; omega

/-- Block `t` of a 1600000-row array is its rows `8000·t … 8000·t + 7999`: entry (a, b) of the block is entry (8000·t + a, b) of the array. -/
theorem blk0_1 (c : Dev nD) (t : Fin cfg0.N) (a : Fin 8000) (b : Fin 32) :
    (iblk0 V c 1 t : S8000x32.Idx → EReal) (ix2 a b) = (V c main_v14 : S1600000x32.Idx → EReal) (ix2 (⟨t.val * 8000 + a.val, by have := t.isLt; have := a.isLt; have hN : cfg0.N = 200 := N_0; omega⟩ : Fin 1600000) b) := by
  obtain ⟨i0a, i0b, i1a, i1b, i2a, i2b, i3a, i3b, i4a, i4b, i5a, i5b, i6a, i6b, i7a, i7b, i8a, i8b, i9a, i9b, i10a, i10b, i11a, i11b⟩ := idx0 t
  unfold iblk0
  rw [View.read_apply]
  show (V c main_v14 : S1600000x32.Idx → EReal) _ = (V c main_v14 : S1600000x32.Idx → EReal) _
  refine congrArg (V c main_v14 : S1600000x32.Idx → EReal) (funext fun ax => Fin.ext ?_)
  match ax with
  | ⟨0, _⟩ => show win0_1.index t (0 : Fin 2) * 8000 + 1 * a.val = t.val * 8000 + a.val; rw [i1a]; omega
  | ⟨1, _⟩ => show win0_1.index t (1 : Fin 2) * 32 + 1 * b.val = b.val; rw [i1b]; omega

/-- Block `t` of a 1600000-row array is its rows `8000·t … 8000·t + 7999`: entry (a, b) of the block is entry (8000·t + a, b) of the array. -/
theorem blk0_2 (c : Dev nD) (t : Fin cfg0.N) (a : Fin 8000) (b : Fin 32) :
    (iblk0 V c 2 t : S8000x32.Idx → EReal) (ix2 a b) = (V c main_arg1 : S1600000x32.Idx → EReal) (ix2 (⟨t.val * 8000 + a.val, by have := t.isLt; have := a.isLt; have hN : cfg0.N = 200 := N_0; omega⟩ : Fin 1600000) b) := by
  obtain ⟨i0a, i0b, i1a, i1b, i2a, i2b, i3a, i3b, i4a, i4b, i5a, i5b, i6a, i6b, i7a, i7b, i8a, i8b, i9a, i9b, i10a, i10b, i11a, i11b⟩ := idx0 t
  unfold iblk0
  rw [View.read_apply]
  show (V c main_arg1 : S1600000x32.Idx → EReal) _ = (V c main_arg1 : S1600000x32.Idx → EReal) _
  refine congrArg (V c main_arg1 : S1600000x32.Idx → EReal) (funext fun ax => Fin.ext ?_)
  match ax with
  | ⟨0, _⟩ => show win0_2.index t (0 : Fin 2) * 8000 + 1 * a.val = t.val * 8000 + a.val; rw [i2a]; omega
  | ⟨1, _⟩ => show win0_2.index t (1 : Fin 2) * 32 + 1 * b.val = b.val; rw [i2b]; omega

/-- A window that does not move holds its whole array at every point. -/
theorem blk0_3 (c : Dev nD) (t : Fin cfg0.N) (a : Fin 32) (b : Fin 64) :
    (iblk0 V c 3 t : S32x64.Idx → EReal) (ix2 a b) = (V c main_v15 : S32x64.Idx → EReal) (ix2 a b) := by
  obtain ⟨i0a, i0b, i1a, i1b, i2a, i2b, i3a, i3b, i4a, i4b, i5a, i5b, i6a, i6b, i7a, i7b, i8a, i8b, i9a, i9b, i10a, i10b, i11a, i11b⟩ := idx0 t
  unfold iblk0
  rw [View.read_apply]
  show (V c main_v15 : S32x64.Idx → EReal) _ = (V c main_v15 : S32x64.Idx → EReal) _
  refine congrArg (V c main_v15 : S32x64.Idx → EReal) (funext fun ax => Fin.ext ?_)
  match ax with
  | ⟨0, _⟩ => show win0_3.index t (0 : Fin 2) * 32 + 1 * a.val = a.val; rw [i3a]; omega
  | ⟨1, _⟩ => show win0_3.index t (1 : Fin 2) * 64 + 1 * b.val = b.val; rw [i3b]; omega

/-- A window that does not move holds its whole array at every point. -/
theorem blk0_4 (c : Dev nD) (t : Fin cfg0.N) (a : Fin 32) (b : Fin 64) :
    (iblk0 V c 4 t : S32x64.Idx → EReal) (ix2 a b) = (V c main_v16 : S32x64.Idx → EReal) (ix2 a b) := by
  obtain ⟨i0a, i0b, i1a, i1b, i2a, i2b, i3a, i3b, i4a, i4b, i5a, i5b, i6a, i6b, i7a, i7b, i8a, i8b, i9a, i9b, i10a, i10b, i11a, i11b⟩ := idx0 t
  unfold iblk0
  rw [View.read_apply]
  show (V c main_v16 : S32x64.Idx → EReal) _ = (V c main_v16 : S32x64.Idx → EReal) _
  refine congrArg (V c main_v16 : S32x64.Idx → EReal) (funext fun ax => Fin.ext ?_)
  match ax with
  | ⟨0, _⟩ => show win0_4.index t (0 : Fin 2) * 32 + 1 * a.val = a.val; rw [i4a]; omega
  | ⟨1, _⟩ => show win0_4.index t (1 : Fin 2) * 64 + 1 * b.val = b.val; rw [i4b]; omega

/-- A window that does not move holds its whole array at every point. -/
theorem blk0_5 (c : Dev nD) (t : Fin cfg0.N) (a : Fin 32) (b : Fin 64) :
    (iblk0 V c 5 t : S32x64.Idx → EReal) (ix2 a b) = (V c main_v17 : S32x64.Idx → EReal) (ix2 a b) := by
  obtain ⟨i0a, i0b, i1a, i1b, i2a, i2b, i3a, i3b, i4a, i4b, i5a, i5b, i6a, i6b, i7a, i7b, i8a, i8b, i9a, i9b, i10a, i10b, i11a, i11b⟩ := idx0 t
  unfold iblk0
  rw [View.read_apply]
  show (V c main_v17 : S32x64.Idx → EReal) _ = (V c main_v17 : S32x64.Idx → EReal) _
  refine congrArg (V c main_v17 : S32x64.Idx → EReal) (funext fun ax => Fin.ext ?_)
  match ax with
  | ⟨0, _⟩ => show win0_5.index t (0 : Fin 2) * 32 + 1 * a.val = a.val; rw [i5a]; omega
  | ⟨1, _⟩ => show win0_5.index t (1 : Fin 2) * 64 + 1 * b.val = b.val; rw [i5b]; omega

/-- A window that does not move holds its whole array at every point. -/
theorem blk0_6 (c : Dev nD) (t : Fin cfg0.N) (a : Fin 1) (b : Fin 64) :
    (iblk0 V c 6 t : S1x64.Idx → EReal) (ix2 a b) = (V c main_v18 : S1x64.Idx → EReal) (ix2 a b) := by
  obtain ⟨i0a, i0b, i1a, i1b, i2a, i2b, i3a, i3b, i4a, i4b, i5a, i5b, i6a, i6b, i7a, i7b, i8a, i8b, i9a, i9b, i10a, i10b, i11a, i11b⟩ := idx0 t
  unfold iblk0
  rw [View.read_apply]
  show (V c main_v18 : S1x64.Idx → EReal) _ = (V c main_v18 : S1x64.Idx → EReal) _
  refine congrArg (V c main_v18 : S1x64.Idx → EReal) (funext fun ax => Fin.ext ?_)
  match ax with
  | ⟨0, _⟩ => show win0_6.index t (0 : Fin 2) * 1 + 1 * a.val = a.val; rw [i6a]; omega
  | ⟨1, _⟩ => show win0_6.index t (1 : Fin 2) * 64 + 1 * b.val = b.val; rw [i6b]; omega

/-- A window that does not move holds its whole array at every point. -/
theorem blk0_7 (c : Dev nD) (t : Fin cfg0.N) (a : Fin 64) (b : Fin 64) :
    (iblk0 V c 7 t : S64x64.Idx → EReal) (ix2 a b) = (V c main_arg6 : S64x64.Idx → EReal) (ix2 a b) := by
  obtain ⟨i0a, i0b, i1a, i1b, i2a, i2b, i3a, i3b, i4a, i4b, i5a, i5b, i6a, i6b, i7a, i7b, i8a, i8b, i9a, i9b, i10a, i10b, i11a, i11b⟩ := idx0 t
  unfold iblk0
  rw [View.read_apply]
  show (V c main_arg6 : S64x64.Idx → EReal) _ = (V c main_arg6 : S64x64.Idx → EReal) _
  refine congrArg (V c main_arg6 : S64x64.Idx → EReal) (funext fun ax => Fin.ext ?_)
  match ax with
  | ⟨0, _⟩ => show win0_7.index t (0 : Fin 2) * 64 + 1 * a.val = a.val; rw [i7a]; omega
  | ⟨1, _⟩ => show win0_7.index t (1 : Fin 2) * 64 + 1 * b.val = b.val; rw [i7b]; omega

/-- A window that does not move holds its whole array at every point. -/
theorem blk0_8 (c : Dev nD) (t : Fin cfg0.N) (a : Fin 1) (b : Fin 64) :
    (iblk0 V c 8 t : S1x64.Idx → EReal) (ix2 a b) = (V c main_v19 : S1x64.Idx → EReal) (ix2 a b) := by
  obtain ⟨i0a, i0b, i1a, i1b, i2a, i2b, i3a, i3b, i4a, i4b, i5a, i5b, i6a, i6b, i7a, i7b, i8a, i8b, i9a, i9b, i10a, i10b, i11a, i11b⟩ := idx0 t
  unfold iblk0
  rw [View.read_apply]
  show (V c main_v19 : S1x64.Idx → EReal) _ = (V c main_v19 : S1x64.Idx → EReal) _
  refine congrArg (V c main_v19 : S1x64.Idx → EReal) (funext fun ax => Fin.ext ?_)
  match ax with
  | ⟨0, _⟩ => show win0_8.index t (0 : Fin 2) * 1 + 1 * a.val = a.val; rw [i8a]; omega
  | ⟨1, _⟩ => show win0_8.index t (1 : Fin 2) * 64 + 1 * b.val = b.val; rw [i8b]; omega

/-- A window that does not move holds its whole array at every point. -/
theorem blk0_9 (c : Dev nD) (t : Fin cfg0.N) (a : Fin 64) (b : Fin 32) :
    (iblk0 V c 9 t : S64x32.Idx → EReal) (ix2 a b) = (V c main_arg8 : S64x32.Idx → EReal) (ix2 a b) := by
  obtain ⟨i0a, i0b, i1a, i1b, i2a, i2b, i3a, i3b, i4a, i4b, i5a, i5b, i6a, i6b, i7a, i7b, i8a, i8b, i9a, i9b, i10a, i10b, i11a, i11b⟩ := idx0 t
  unfold iblk0
  rw [View.read_apply]
  show (V c main_arg8 : S64x32.Idx → EReal) _ = (V c main_arg8 : S64x32.Idx → EReal) _
  refine congrArg (V c main_arg8 : S64x32.Idx → EReal) (funext fun ax => Fin.ext ?_)
  match ax with
  | ⟨0, _⟩ => show win0_9.index t (0 : Fin 2) * 64 + 1 * a.val = a.val; rw [i9a]; omega
  | ⟨1, _⟩ => show win0_9.index t (1 : Fin 2) * 32 + 1 * b.val = b.val; rw [i9b]; omega

/-- A window that does not move holds its whole array at every point. -/
theorem blk0_10 (c : Dev nD) (t : Fin cfg0.N) (a : Fin 1) (b : Fin 32) :
    (iblk0 V c 10 t : S1x32.Idx → EReal) (ix2 a b) = (V c main_v20 : S1x32.Idx → EReal) (ix2 a b) := by
  obtain ⟨i0a, i0b, i1a, i1b, i2a, i2b, i3a, i3b, i4a, i4b, i5a, i5b, i6a, i6b, i7a, i7b, i8a, i8b, i9a, i9b, i10a, i10b, i11a, i11b⟩ := idx0 t
  unfold iblk0
  rw [View.read_apply]
  show (V c main_v20 : S1x32.Idx → EReal) _ = (V c main_v20 : S1x32.Idx → EReal) _
  refine congrArg (V c main_v20 : S1x32.Idx → EReal) (funext fun ax => Fin.ext ?_)
  match ax with
  | ⟨0, _⟩ => show win0_10.index t (0 : Fin 2) * 1 + 1 * a.val = a.val; rw [i10a]; omega
  | ⟨1, _⟩ => show win0_10.index t (1 : Fin 2) * 32 + 1 * b.val = b.val; rw [i10b]; omega

/-- The result's block at point `t` sits at rows `8000·t …` of the result array. -/
theorem emb0 (t : Fin cfg0.N) (p : Fin 8000) (q : Fin 32) :
    ((cfg0.win 11).blk t).view.emb (ix2 p q)
      = ix2 (⟨t.val * 8000 + p.val, by have := t.isLt; have := p.isLt; have hN : cfg0.N = 200 := N_0; omega⟩ : Fin 1600000) q := by
  obtain ⟨i0a, i0b, i1a, i1b, i2a, i2b, i3a, i3b, i4a, i4b, i5a, i5b, i6a, i6b, i7a, i7b, i8a, i8b, i9a, i9b, i10a, i10b, i11a, i11b⟩ := idx0 t
  refine funext fun ax => Fin.ext ?_
  match ax with
  | ⟨0, _⟩ => show win0_11.index t (0 : Fin 2) * 8000 + 1 * p.val = t.val * 8000 + p.val; rw [i11a]; omega
  | ⟨1, _⟩ => show win0_11.index t (1 : Fin 2) * 32 + 1 * q.val = q.val; rw [i11b]; omega

/-- What grid point `t` writes back is block `t` of the edge perceptron applied, row by row, to the arrays
    the grid finds on entry. -/
theorem flushed0 (c : Dev nD) (t : Fin cfg0.N) :
    (dat0 V c).flushed 11 t = ((cfg0.win 11).blk t).view.read (Elt Ideal)
      (Mpnn.edgeArr (V c main_v7 : S1600000x32.Idx → EReal) (V c main_v14 : S1600000x32.Idx → EReal) (V c main_arg1 : S1600000x32.Idx → EReal) (V c main_v15 : S32x64.Idx → EReal) (V c main_v16 : S32x64.Idx → EReal) (V c main_v17 : S32x64.Idx → EReal) (V c main_v18 : S1x64.Idx → EReal) (V c main_arg6 : S64x64.Idx → EReal) (V c main_v19 : S1x64.Idx → EReal) (V c main_arg8 : S64x32.Idx → EReal) (V c main_v20 : S1x32.Idx → EReal)) := by
  show (cfg0.win 11).cut (grid0.coords t) ((dat0 V c).after 11 t) = _
  rw [after0_11]
  unfold out0_11
  rw [View.canon_unit_zero origin]
  simp only [View.ld_unit_zero (S := S8000x32) origin, View.ld_unit_zero (S := S32x64) origin, View.ld_unit_zero (S := S1x64) origin, View.ld_unit_zero (S := S64x64) origin, View.ld_unit_zero (S := S64x32) origin, View.ld_unit_zero (S := S1x32) origin]
  funext j
  obtain ⟨p, q, rfl⟩ : ∃ (p : Fin 8000) (q : Fin 32), j = ix2 p q := ⟨j 0, j 1, eq_ix2 j⟩
  show k0_pay1 (F := Ideal) (k0_pay2 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t)) (k0_pay3 (F := Ideal)) (iblk0 V c 9 t) (iblk0 V c 10 t) (ix2 p q)
      = Mpnn.edgeArr (V c main_v7 : S1600000x32.Idx → EReal) (V c main_v14 : S1600000x32.Idx → EReal) (V c main_arg1 : S1600000x32.Idx → EReal) (V c main_v15 : S32x64.Idx → EReal) (V c main_v16 : S32x64.Idx → EReal) (V c main_v17 : S32x64.Idx → EReal) (V c main_v18 : S1x64.Idx → EReal) (V c main_arg6 : S64x64.Idx → EReal) (V c main_v19 : S1x64.Idx → EReal) (V c main_arg8 : S64x32.Idx → EReal) (V c main_v20 : S1x32.Idx → EReal) (((cfg0.win 11).blk t).view.emb (ix2 p q))
  refine (Payload.edge_entry (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) p q).trans ?_
  rw [emb0 t p q, Mpnn.edgeArr_ix2]
  exact Mpnn.edgeRow_congr _ _ _ _ _ _ _ _ _ _ _ _ _ _ _ _ _ _ _ _ _ _ p _ q
      (fun a => blk0_0 V c t p a)
      (fun a => blk0_1 V c t p a)
      (fun a => blk0_2 V c t p a)
      (fun a j => blk0_3 V c t a j)
      (fun a j => blk0_4 V c t a j)
      (fun a j => blk0_5 V c t a j)
      (fun j => blk0_6 V c t (0 : Fin 1) j)
      (fun a j => blk0_7 V c t a j)
      (fun j => blk0_8 V c t (0 : Fin 1) j)
      (fun a j => blk0_9 V c t a j)
      (fun j => blk0_10 V c t (0 : Fin 1) j)

/-- The blocks tile the result array: row `i` lies in block `i / 8000`.  So after the grid the result
    array IS the edge perceptron applied, row by row, to the arrays the grid found on entry. -/
theorem value0 (c : Dev nD) :
    (dat0 V c).arrAt 11 cfg0.N = Mpnn.edgeArr (V c main_v7 : S1600000x32.Idx → EReal) (V c main_v14 : S1600000x32.Idx → EReal) (V c main_arg1 : S1600000x32.Idx → EReal) (V c main_v15 : S32x64.Idx → EReal) (V c main_v16 : S32x64.Idx → EReal) (V c main_v17 : S32x64.Idx → EReal) (V c main_v18 : S1x64.Idx → EReal) (V c main_arg6 : S64x64.Idx → EReal) (V c main_v19 : S1x64.Idx → EReal) (V c main_arg8 : S64x32.Idx → EReal) (V c main_v20 : S1x32.Idx → EReal) :=
  (dat0 V c).arrAt_eq_of_cover 11 _ (fun t _ => flushed0 V c t) fun i => by
    have hN : cfg0.N = 200 := N_0
    have h0 : (i 0).val < 1600000 := (i 0).isLt
    have h1 : (i 1).val < 32 := (i 1).isLt
    let t : Fin cfg0.N := ⟨(i 0).val / 8000, by omega⟩
    obtain ⟨i0a, i0b, i1a, i1b, i2a, i2b, i3a, i3b, i4a, i4b, i5a, i5b, i6a, i6b, i7a, i7b, i8a, i8b, i9a, i9b, i10a, i10b, i11a, i11b⟩ := idx0 t
    refine ⟨t, flush0_11 t, ?_⟩
    show i ∈ ((View.whole main_v21).slice (win0_11.rect t)).set
    rw [View.set_slice_whole, Rect.mem_set_unit]
    intro ax
    match ax with
    | ⟨0, _⟩ =>
      show win0_11.index t (0 : Fin 2) * 8000 ≤ (i 0).val ∧ (i 0).val < win0_11.index t (0 : Fin 2) * 8000 + 8000
      rw [i11a]; show (i 0).val / 8000 * 8000 ≤ (i 0).val ∧ (i 0).val < (i 0).val / 8000 * 8000 + 8000; omega
    | ⟨1, _⟩ =>
      show win0_11.index t (1 : Fin 2) * 32 ≤ (i 1).val ∧ (i 1).val < win0_11.index t (1 : Fin 2) * 32 + 32
      rw [i11b]; omega

/-! ## The node perceptron's grid: 20 blocks of 5000 rows -/

/-- Where each window's block sits at grid point `t`: the three row-stacked operands and the result
    move one block of rows per point; the matrices and biases stay put. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Block `t` of a 100000-row array is its rows `5000·t … 5000·t + 4999`: entry (a, b) of the block is entry (5000·t + a, b) of the array. -/
theorem blk1_0 (c : Dev nD) (t : Fin cfg1.N) (a : Fin 5000) (b : Fin 32) :
    (iblk1 V c 0 t : S5000x32.Idx → EReal) (ix2 a b) = (V c main_arg0 : S100000x32.Idx → EReal) (ix2 (⟨t.val * 5000 + a.val, by have := t.isLt; have := a.isLt; have hN : cfg1.N = 20 := N_1; omega⟩ : Fin 100000) b) := by
  obtain ⟨i0a, i0b, i1a, i1b, i2a, i2b, i3a, i3b, i4a, i4b, i5a, i5b, i6a, i6b, i7a, i7b, i8a, i8b, i9a, i9b⟩ := idx1 t
  unfold iblk1
  rw [View.read_apply]
  show (V c main_arg0 : S100000x32.Idx → EReal) _ = (V c main_arg0 : S100000x32.Idx → EReal) _
  refine congrArg (V c main_arg0 : S100000x32.Idx → EReal) (funext fun ax => Fin.ext ?_)
  match ax with
  | ⟨0, _⟩ => show win1_0.index t (0 : Fin 2) * 5000 + 1 * a.val = t.val * 5000 + a.val; rw [i0a]; omega
  | ⟨1, _⟩ => show win1_0.index t (1 : Fin 2) * 32 + 1 * b.val = b.val; rw [i0b]; omega

/-- Block `t` of a 100000-row array is its rows `5000·t … 5000·t + 4999`: entry (a, b) of the block is entry (5000·t + a, b) of the array. -/
theorem blk1_1 (c : Dev nD) (t : Fin cfg1.N) (a : Fin 5000) (b : Fin 32) :
    (iblk1 V c 1 t : S5000x32.Idx → EReal) (ix2 a b) = (V c main_v24 : S100000x32.Idx → EReal) (ix2 (⟨t.val * 5000 + a.val, by have := t.isLt; have := a.isLt; have hN : cfg1.N = 20 := N_1; omega⟩ : Fin 100000) b) := by
  obtain ⟨i0a, i0b, i1a, i1b, i2a, i2b, i3a, i3b, i4a, i4b, i5a, i5b, i6a, i6b, i7a, i7b, i8a, i8b, i9a, i9b⟩ := idx1 t
  unfold iblk1
  rw [View.read_apply]
  show (V c main_v24 : S100000x32.Idx → EReal) _ = (V c main_v24 : S100000x32.Idx → EReal) _
  refine congrArg (V c main_v24 : S100000x32.Idx → EReal) (funext fun ax => Fin.ext ?_)
  match ax with
  | ⟨0, _⟩ => show win1_1.index t (0 : Fin 2) * 5000 + 1 * a.val = t.val * 5000 + a.val; rw [i1a]; omega
  | ⟨1, _⟩ => show win1_1.index t (1 : Fin 2) * 32 + 1 * b.val = b.val; rw [i1b]; omega

/-- A window that does not move holds its whole array at every point. -/
theorem blk1_2 (c : Dev nD) (t : Fin cfg1.N) (a : Fin 32) (b : Fin 64) :
    (iblk1 V c 2 t : S32x64.Idx → EReal) (ix2 a b) = (V c main_v25 : S32x64.Idx → EReal) (ix2 a b) := by
  obtain ⟨i0a, i0b, i1a, i1b, i2a, i2b, i3a, i3b, i4a, i4b, i5a, i5b, i6a, i6b, i7a, i7b, i8a, i8b, i9a, i9b⟩ := idx1 t
  unfold iblk1
  rw [View.read_apply]
  show (V c main_v25 : S32x64.Idx → EReal) _ = (V c main_v25 : S32x64.Idx → EReal) _
  refine congrArg (V c main_v25 : S32x64.Idx → EReal) (funext fun ax => Fin.ext ?_)
  match ax with
  | ⟨0, _⟩ => show win1_2.index t (0 : Fin 2) * 32 + 1 * a.val = a.val; rw [i2a]; omega
  | ⟨1, _⟩ => show win1_2.index t (1 : Fin 2) * 64 + 1 * b.val = b.val; rw [i2b]; omega

/-- A window that does not move holds its whole array at every point. -/
theorem blk1_3 (c : Dev nD) (t : Fin cfg1.N) (a : Fin 32) (b : Fin 64) :
    (iblk1 V c 3 t : S32x64.Idx → EReal) (ix2 a b) = (V c main_v26 : S32x64.Idx → EReal) (ix2 a b) := by
  obtain ⟨i0a, i0b, i1a, i1b, i2a, i2b, i3a, i3b, i4a, i4b, i5a, i5b, i6a, i6b, i7a, i7b, i8a, i8b, i9a, i9b⟩ := idx1 t
  unfold iblk1
  rw [View.read_apply]
  show (V c main_v26 : S32x64.Idx → EReal) _ = (V c main_v26 : S32x64.Idx → EReal) _
  refine congrArg (V c main_v26 : S32x64.Idx → EReal) (funext fun ax => Fin.ext ?_)
  match ax with
  | ⟨0, _⟩ => show win1_3.index t (0 : Fin 2) * 32 + 1 * a.val = a.val; rw [i3a]; omega
  | ⟨1, _⟩ => show win1_3.index t (1 : Fin 2) * 64 + 1 * b.val = b.val; rw [i3b]; omega

/-- A window that does not move holds its whole array at every point. -/
theorem blk1_4 (c : Dev nD) (t : Fin cfg1.N) (a : Fin 1) (b : Fin 64) :
    (iblk1 V c 4 t : S1x64.Idx → EReal) (ix2 a b) = (V c main_v27 : S1x64.Idx → EReal) (ix2 a b) := by
  obtain ⟨i0a, i0b, i1a, i1b, i2a, i2b, i3a, i3b, i4a, i4b, i5a, i5b, i6a, i6b, i7a, i7b, i8a, i8b, i9a, i9b⟩ := idx1 t
  unfold iblk1
  rw [View.read_apply]
  show (V c main_v27 : S1x64.Idx → EReal) _ = (V c main_v27 : S1x64.Idx → EReal) _
  refine congrArg (V c main_v27 : S1x64.Idx → EReal) (funext fun ax => Fin.ext ?_)
  match ax with
  | ⟨0, _⟩ => show win1_4.index t (0 : Fin 2) * 1 + 1 * a.val = a.val; rw [i4a]; omega
  | ⟨1, _⟩ => show win1_4.index t (1 : Fin 2) * 64 + 1 * b.val = b.val; rw [i4b]; omega

/-- A window that does not move holds its whole array at every point. -/
theorem blk1_5 (c : Dev nD) (t : Fin cfg1.N) (a : Fin 64) (b : Fin 64) :
    (iblk1 V c 5 t : S64x64.Idx → EReal) (ix2 a b) = (V c main_arg12 : S64x64.Idx → EReal) (ix2 a b) := by
  obtain ⟨i0a, i0b, i1a, i1b, i2a, i2b, i3a, i3b, i4a, i4b, i5a, i5b, i6a, i6b, i7a, i7b, i8a, i8b, i9a, i9b⟩ := idx1 t
  unfold iblk1
  rw [View.read_apply]
  show (V c main_arg12 : S64x64.Idx → EReal) _ = (V c main_arg12 : S64x64.Idx → EReal) _
  refine congrArg (V c main_arg12 : S64x64.Idx → EReal) (funext fun ax => Fin.ext ?_)
  match ax with
  | ⟨0, _⟩ => show win1_5.index t (0 : Fin 2) * 64 + 1 * a.val = a.val; rw [i5a]; omega
  | ⟨1, _⟩ => show win1_5.index t (1 : Fin 2) * 64 + 1 * b.val = b.val; rw [i5b]; omega

/-- A window that does not move holds its whole array at every point. -/
theorem blk1_6 (c : Dev nD) (t : Fin cfg1.N) (a : Fin 1) (b : Fin 64) :
    (iblk1 V c 6 t : S1x64.Idx → EReal) (ix2 a b) = (V c main_v28 : S1x64.Idx → EReal) (ix2 a b) := by
  obtain ⟨i0a, i0b, i1a, i1b, i2a, i2b, i3a, i3b, i4a, i4b, i5a, i5b, i6a, i6b, i7a, i7b, i8a, i8b, i9a, i9b⟩ := idx1 t
  unfold iblk1
  rw [View.read_apply]
  show (V c main_v28 : S1x64.Idx → EReal) _ = (V c main_v28 : S1x64.Idx → EReal) _
  refine congrArg (V c main_v28 : S1x64.Idx → EReal) (funext fun ax => Fin.ext ?_)
  match ax with
  | ⟨0, _⟩ => show win1_6.index t (0 : Fin 2) * 1 + 1 * a.val = a.val; rw [i6a]; omega
  | ⟨1, _⟩ => show win1_6.index t (1 : Fin 2) * 64 + 1 * b.val = b.val; rw [i6b]; omega

/-- A window that does not move holds its whole array at every point. -/
theorem blk1_7 (c : Dev nD) (t : Fin cfg1.N) (a : Fin 64) (b : Fin 32) :
    (iblk1 V c 7 t : S64x32.Idx → EReal) (ix2 a b) = (V c main_arg14 : S64x32.Idx → EReal) (ix2 a b) := by
  obtain ⟨i0a, i0b, i1a, i1b, i2a, i2b, i3a, i3b, i4a, i4b, i5a, i5b, i6a, i6b, i7a, i7b, i8a, i8b, i9a, i9b⟩ := idx1 t
  unfold iblk1
  rw [View.read_apply]
  show (V c main_arg14 : S64x32.Idx → EReal) _ = (V c main_arg14 : S64x32.Idx → EReal) _
  refine congrArg (V c main_arg14 : S64x32.Idx → EReal) (funext fun ax => Fin.ext ?_)
  match ax with
  | ⟨0, _⟩ => show win1_7.index t (0 : Fin 2) * 64 + 1 * a.val = a.val; rw [i7a]; omega
  | ⟨1, _⟩ => show win1_7.index t (1 : Fin 2) * 32 + 1 * b.val = b.val; rw [i7b]; omega

/-- A window that does not move holds its whole array at every point. -/
theorem blk1_8 (c : Dev nD) (t : Fin cfg1.N) (a : Fin 1) (b : Fin 32) :
    (iblk1 V c 8 t : S1x32.Idx → EReal) (ix2 a b) = (V c main_v29 : S1x32.Idx → EReal) (ix2 a b) := by
  obtain ⟨i0a, i0b, i1a, i1b, i2a, i2b, i3a, i3b, i4a, i4b, i5a, i5b, i6a, i6b, i7a, i7b, i8a, i8b, i9a, i9b⟩ := idx1 t
  unfold iblk1
  rw [View.read_apply]
  show (V c main_v29 : S1x32.Idx → EReal) _ = (V c main_v29 : S1x32.Idx → EReal) _
  refine congrArg (V c main_v29 : S1x32.Idx → EReal) (funext fun ax => Fin.ext ?_)
  match ax with
  | ⟨0, _⟩ => show win1_8.index t (0 : Fin 2) * 1 + 1 * a.val = a.val; rw [i8a]; omega
  | ⟨1, _⟩ => show win1_8.index t (1 : Fin 2) * 32 + 1 * b.val = b.val; rw [i8b]; omega

/-- The result's block at point `t` sits at rows `5000·t …` of the result array. -/
theorem emb1 (t : Fin cfg1.N) (p : Fin 5000) (q : Fin 32) :
    ((cfg1.win 9).blk t).view.emb (ix2 p q)
      = ix2 (⟨t.val * 5000 + p.val, by have := t.isLt; have := p.isLt; have hN : cfg1.N = 20 := N_1; omega⟩ : Fin 100000) q := by
  obtain ⟨i0a, i0b, i1a, i1b, i2a, i2b, i3a, i3b, i4a, i4b, i5a, i5b, i6a, i6b, i7a, i7b, i8a, i8b, i9a, i9b⟩ := idx1 t
  refine funext fun ax => Fin.ext ?_
  match ax with
  | ⟨0, _⟩ => show win1_9.index t (0 : Fin 2) * 5000 + 1 * p.val = t.val * 5000 + p.val; rw [i9a]; omega
  | ⟨1, _⟩ => show win1_9.index t (1 : Fin 2) * 32 + 1 * q.val = q.val; rw [i9b]; omega

/-- What grid point `t` writes back is block `t` of the node perceptron applied, row by row, to the arrays
    the grid finds on entry. -/
theorem flushed1 (c : Dev nD) (t : Fin cfg1.N) :
    (dat1 V c).flushed 9 t = ((cfg1.win 9).blk t).view.read (Elt Ideal)
      (Mpnn.nodeArr (V c main_arg0 : S100000x32.Idx → EReal) (V c main_v24 : S100000x32.Idx → EReal) (V c main_v25 : S32x64.Idx → EReal) (V c main_v26 : S32x64.Idx → EReal) (V c main_v27 : S1x64.Idx → EReal) (V c main_arg12 : S64x64.Idx → EReal) (V c main_v28 : S1x64.Idx → EReal) (V c main_arg14 : S64x32.Idx → EReal) (V c main_v29 : S1x32.Idx → EReal)) := by
  show (cfg1.win 9).cut (grid1.coords t) ((dat1 V c).after 9 t) = _
  rw [after1_9]
  unfold out1_9
  rw [View.canon_unit_zero origin]
  simp only [View.ld_unit_zero (S := S5000x32) origin, View.ld_unit_zero (S := S32x64) origin, View.ld_unit_zero (S := S1x64) origin, View.ld_unit_zero (S := S64x64) origin, View.ld_unit_zero (S := S64x32) origin, View.ld_unit_zero (S := S1x32) origin]
  funext j
  obtain ⟨p, q, rfl⟩ : ∃ (p : Fin 5000) (q : Fin 32), j = ix2 p q := ⟨j 0, j 1, eq_ix2 j⟩
  show k1_pay1 (F := Ideal) (k1_pay2 (F := Ideal) (iblk1 V c 0 t) (iblk1 V c 1 t) (iblk1 V c 2 t) (iblk1 V c 3 t) (iblk1 V c 4 t) (iblk1 V c 5 t) (iblk1 V c 6 t) (iblk1 V c 7 t)) (iblk1 V c 8 t) (ix2 p q)
      = Mpnn.nodeArr (V c main_arg0 : S100000x32.Idx → EReal) (V c main_v24 : S100000x32.Idx → EReal) (V c main_v25 : S32x64.Idx → EReal) (V c main_v26 : S32x64.Idx → EReal) (V c main_v27 : S1x64.Idx → EReal) (V c main_arg12 : S64x64.Idx → EReal) (V c main_v28 : S1x64.Idx → EReal) (V c main_arg14 : S64x32.Idx → EReal) (V c main_v29 : S1x32.Idx → EReal) (((cfg1.win 9).blk t).view.emb (ix2 p q))
  refine (Payload.node_entry (iblk1 V c 0 t) (iblk1 V c 1 t) (iblk1 V c 2 t) (iblk1 V c 3 t) (iblk1 V c 4 t) (iblk1 V c 5 t) (iblk1 V c 6 t) (iblk1 V c 7 t) (iblk1 V c 8 t) p q).trans ?_
  rw [emb1 t p q, Mpnn.nodeArr_ix2]
  exact Mpnn.nodeRow_congr _ _ _ _ _ _ _ _ _ _ _ _ _ _ _ _ _ _ p _ q
      (fun a => blk1_0 V c t p a)
      (fun a => blk1_1 V c t p a)
      (fun a j => blk1_2 V c t a j)
      (fun a j => blk1_3 V c t a j)
      (fun j => blk1_4 V c t (0 : Fin 1) j)
      (fun a j => blk1_5 V c t a j)
      (fun j => blk1_6 V c t (0 : Fin 1) j)
      (fun a j => blk1_7 V c t a j)
      (fun j => blk1_8 V c t (0 : Fin 1) j)

/-- The blocks tile the result array: row `i` lies in block `i / 5000`.  So after the grid the result
    array IS the node perceptron applied, row by row, to the arrays the grid found on entry. -/
theorem value1 (c : Dev nD) :
    (dat1 V c).arrAt 9 cfg1.N = Mpnn.nodeArr (V c main_arg0 : S100000x32.Idx → EReal) (V c main_v24 : S100000x32.Idx → EReal) (V c main_v25 : S32x64.Idx → EReal) (V c main_v26 : S32x64.Idx → EReal) (V c main_v27 : S1x64.Idx → EReal) (V c main_arg12 : S64x64.Idx → EReal) (V c main_v28 : S1x64.Idx → EReal) (V c main_arg14 : S64x32.Idx → EReal) (V c main_v29 : S1x32.Idx → EReal) :=
  (dat1 V c).arrAt_eq_of_cover 9 _ (fun t _ => flushed1 V c t) fun i => by
    have hN : cfg1.N = 20 := N_1
    have h0 : (i 0).val < 100000 := (i 0).isLt
    have h1 : (i 1).val < 32 := (i 1).isLt
    let t : Fin cfg1.N := ⟨(i 0).val / 5000, by omega⟩
    obtain ⟨i0a, i0b, i1a, i1b, i2a, i2b, i3a, i3b, i4a, i4b, i5a, i5b, i6a, i6b, i7a, i7b, i8a, i8b, i9a, i9b⟩ := idx1 t
    refine ⟨t, flush1_9 t, ?_⟩
    show i ∈ ((View.whole main_v30).slice (win1_9.rect t)).set
    rw [View.set_slice_whole, Rect.mem_set_unit]
    intro ax
    match ax with
    | ⟨0, _⟩ =>
      show win1_9.index t (0 : Fin 2) * 5000 ≤ (i 0).val ∧ (i 0).val < win1_9.index t (0 : Fin 2) * 5000 + 5000
      rw [i9a]; show (i 0).val / 5000 * 5000 ≤ (i 0).val ∧ (i 0).val < (i 0).val / 5000 * 5000 + 5000; omega
    | ⟨1, _⟩ =>
      show win1_9.index t (1 : Fin 2) * 32 ≤ (i 1).val ∧ (i 1).val < win1_9.index t (1 : Fin 2) * 32 + 32
      rw [i9b]; omega

end Cert.KernelIdeal.Region

end
-- ==== Proof.KernelRun.lean ====
/-
  The idealized kernel's run, with its two result arrays named.

  The program is four stretches: host operations (index normalisation, two row gathers, the slices
  of the first weight matrix, the biases as rows), the edge perceptron's grid of 200 blocks of 8000
  edges, host operations again (the scatter-add of the messages into their destination nodes, the
  slices of the node perceptron's first matrix), and the node perceptron's grid of 20 blocks of 5000
  nodes.  Every execution ends with every buffer at the contents the fourth stretch leaves; here that
  fact is stated for the two results beside the sixteen arguments, which end as launched.
-/
import proofs.«100135_j64424509440353_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the node result and the edge result end
    at the contents the last stretch leaves them with, and every argument array ends as launched. -/
theorem run_exit : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_v21) = W4 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       h c _ (mem_uc main_v21 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)

end Cert.KernelIdeal.RunValue

end
-- ==== Proof.MpnnLayer.lean ====
/-
  The layer's two results as functions of its arguments.

  `edgeOut` is the edge result from the gathered endpoint rows, the edge features and the edge
  perceptron's parameters; `nodeOut` the node result from the node features, the aggregated messages
  and the node perceptron's parameters.  The first matrix enters through its bands of 32 rows and each
  bias as a single row, which is how a row-by-row description of either program reads them.
-/
import proofs.«100135_j64424509440353_2_alg».proof.Proof.MpnnArrays

noncomputable section

namespace Mpnn

open Idealize.ShloMosaic Idealize.ShloMosaic.ValueIdx

/-! ## The layer's two results from the argument arrays

The first matrix of each perceptron is cut into bands of 32 rows, one per run of the joined axis, and a
bias vector is used as the one row of a one-row matrix. -/

/-- A vector of `k` extended reals. -/
abbrev Vec1 (k : ℕ) : Type := (⟨1, ![k]⟩ : Shape).Idx → EReal

/-- Rows `o … o + 31` of a matrix with `n` rows. -/
def band {n : ℕ} (W : Arr n 64) (o : ℕ) (h : o + 32 ≤ n) : Arr 32 64 :=
  fun i => W (ix2 (⟨o + (i 0).val, by have := idx2_lt0 i; omega⟩ : Fin n) (⟨(i 1).val, idx2_lt1 i⟩ : Fin 64))

theorem band_ix2 {n : ℕ} (W : Arr n 64) (o : ℕ) (h : o + 32 ≤ n) (a : Fin 32) (j : Fin 64) :
    band W o h (ix2 a j) = W (ix2 (⟨o + a.val, by omega⟩ : Fin n) j) := rfl

/-- A vector as the single row of a one-row matrix. -/
def asRow {k : ℕ} (b : Vec1 k) : Arr 1 k := fun i => b (ix1 (⟨(i 1).val, idx2_lt1 i⟩ : Fin k))

theorem asRow_ix2 {k : ℕ} (b : Vec1 k) (j : Fin k) : asRow b (ix2 (0 : Fin 1) j) = b (ix1 j) := rfl

/-- The edge result from the gathered source rows `gs`, the gathered destination rows `gd`, the edge
    features and the edge perceptron's parameters. -/
def edgeOut (gs gd ef : Arr 1600000 32) (W1 : Arr 96 64) (b1 : Vec1 64) (W2 : Arr 64 64) (b2 : Vec1 64)
    (W3 : Arr 64 32) (b3 : Vec1 32) : Arr 1600000 32 :=
  edgeArr gs gd ef (band W1 0 (by omega)) (band W1 32 (by omega)) (band W1 64 (by omega)) (asRow b1) W2 (asRow b2) W3 (asRow b3)

/-- The node result from the node features, the messages summed at each node `agg`, and the node
    perceptron's parameters. -/
def nodeOut (nf agg : Arr 100000 32) (W1 : Arr 64 64) (b1 : Vec1 64) (W2 : Arr 64 64) (b2 : Vec1 64)
    (W3 : Arr 64 32) (b3 : Vec1 32) : Arr 100000 32 :=
  nodeArr nf agg (band W1 0 (by omega)) (band W1 32 (by omega)) (asRow b1) W2 (asRow b2) W3 (asRow b3)

/-- Two descriptions of the edge result agree when their bands and bias rows agree entry by entry. -/
theorem edgeArr_eq_edgeOut (gs gd ef : Arr 1600000 32) (ws wd we : Arr 32 64) (r1 : Arr 1 64) (W2 : Arr 64 64) (r2 : Arr 1 64)
    (W3 : Arr 64 32) (r3 : Arr 1 32) (W1 : Arr 96 64) (b1 b2 : Vec1 64) (b3 : Vec1 32)
    (hws : ∀ a j, ws (ix2 a j) = W1 (ix2 (⟨0 + a.val, by omega⟩ : Fin 96) j))
    (hwd : ∀ a j, wd (ix2 a j) = W1 (ix2 (⟨32 + a.val, by omega⟩ : Fin 96) j))
    (hwe : ∀ a j, we (ix2 a j) = W1 (ix2 (⟨64 + a.val, by omega⟩ : Fin 96) j))
    (h1 : ∀ j, r1 (ix2 (0 : Fin 1) j) = b1 (ix1 j)) (h2 : ∀ j, r2 (ix2 (0 : Fin 1) j) = b2 (ix1 j))
    (h3 : ∀ j, r3 (ix2 (0 : Fin 1) j) = b3 (ix1 j)) :
    edgeArr gs gd ef ws wd we r1 W2 r2 W3 r3 = edgeOut gs gd ef W1 b1 W2 b2 W3 b3 := by
  funext i
  obtain ⟨r, q, rfl⟩ : ∃ (r : Fin 1600000) (q : Fin 32), i = ix2 r q := ⟨i 0, i 1, eq_ix2 i⟩
  unfold edgeOut
  rw [edgeArr_ix2, edgeArr_ix2]
  exact edgeRow_congr _ _ _ _ _ _ _ _ _ _ _ _ _ _ _ _ _ _ _ _ _ _ r r q (fun _ => rfl) (fun _ => rfl) (fun _ => rfl)
    (fun a j => (hws a j).trans (band_ix2 W1 0 _ a j).symm) (fun a j => (hwd a j).trans (band_ix2 W1 32 _ a j).symm)
    (fun a j => (hwe a j).trans (band_ix2 W1 64 _ a j).symm) (fun j => (h1 j).trans (asRow_ix2 b1 j).symm) (fun _ _ => rfl)
    (fun j => (h2 j).trans (asRow_ix2 b2 j).symm) (fun _ _ => rfl) (fun j => (h3 j).trans (asRow_ix2 b3 j).symm)

/-- The same for the node result. -/
theorem nodeArr_eq_nodeOut (nf agg : Arr 100000 32) (wx wg : Arr 32 64) (r1 : Arr 1 64) (W2 : Arr 64 64) (r2 : Arr 1 64)
    (W3 : Arr 64 32) (r3 : Arr 1 32) (W1 : Arr 64 64) (b1 b2 : Vec1 64) (b3 : Vec1 32)
    (hwx : ∀ a j, wx (ix2 a j) = W1 (ix2 (⟨0 + a.val, by omega⟩ : Fin 64) j))
    (hwg : ∀ a j, wg (ix2 a j) = W1 (ix2 (⟨32 + a.val, by omega⟩ : Fin 64) j))
    (h1 : ∀ j, r1 (ix2 (0 : Fin 1) j) = b1 (ix1 j)) (h2 : ∀ j, r2 (ix2 (0 : Fin 1) j) = b2 (ix1 j))
    (h3 : ∀ j, r3 (ix2 (0 : Fin 1) j) = b3 (ix1 j)) :
    nodeArr nf agg wx wg r1 W2 r2 W3 r3 = nodeOut nf agg W1 b1 W2 b2 W3 b3 := by
  funext i
  obtain ⟨r, q, rfl⟩ : ∃ (r : Fin 100000) (q : Fin 32), i = ix2 r q := ⟨i 0, i 1, eq_ix2 i⟩
  unfold nodeOut
  rw [nodeArr_ix2, nodeArr_ix2]
  exact nodeRow_congr _ _ _ _ _ _ _ _ _ _ _ _ _ _ _ _ _ _ r r q (fun _ => rfl) (fun _ => rfl)
    (fun a j => (hwx a j).trans (band_ix2 W1 0 _ a j).symm) (fun a j => (hwg a j).trans (band_ix2 W1 32 _ a j).symm)
    (fun j => (h1 j).trans (asRow_ix2 b1 j).symm) (fun _ _ => rfl)
    (fun j => (h2 j).trans (asRow_ix2 b2 j).symm) (fun _ _ => rfl) (fun j => (h3 j).trans (asRow_ix2 b3 j).symm)

/-! ## The joined-axis form

A program that first lays a row's inputs side by side and then contracts ONCE over the joined axis
computes the same numbers: the one sum splits into the runs of the joined axis. -/

/-- The edge result at (r, q) from the joined rows `cat` (source, destination, edge features side by
    side) contracted once against the whole first matrix. -/
theorem edgeOut_joined (cat : Arr 1600000 96) (gs gd ef : Arr 1600000 32) (W1 : Arr 96 64) (b1 : Vec1 64) (W2 : Arr 64 64)
    (b2 : Vec1 64) (W3 : Arr 64 32) (b3 : Vec1 32)
    (h0 : ∀ (r : Fin 1600000) (a : Fin 32), cat (ix2 r (⟨a.val, by omega⟩ : Fin 96)) = gs (ix2 r a))
    (h1 : ∀ (r : Fin 1600000) (a : Fin 32), cat (ix2 r (⟨32 + a.val, by omega⟩ : Fin 96)) = gd (ix2 r a))
    (h2 : ∀ (r : Fin 1600000) (a : Fin 32), cat (ix2 r (⟨64 + a.val, by omega⟩ : Fin 96)) = ef (ix2 r a))
    (r : Fin 1600000) (q : Fin 32) :
    max ((∑ k : Fin 64, max ((∑ k' : Fin 64, max ((∑ c : Fin 96, cat (ix2 r c) * W1 (ix2 c k')) + b1 (ix1 k')) 0
        * W2 (ix2 k' k)) + b2 (ix1 k)) 0 * W3 (ix2 k q)) + b3 (ix1 q)) 0
      = edgeOut gs gd ef W1 b1 W2 b2 W3 b3 (ix2 r q) := by
  unfold edgeOut
  rw [edgeArr_ix2]
  unfold edgeRow tail relu
  simp only [asRow_ix2, band_ix2, Nat.zero_add]
  have hj : ∀ k' : Fin 64, (∑ c : Fin 96, cat (ix2 r c) * W1 (ix2 c k')) + b1 (ix1 k')
      = pre3 (fun a => gs (ix2 r a)) (fun a => gd (ix2 r a)) (fun a => ef (ix2 r a))
          (fun a j => W1 (ix2 (⟨a.val, by omega⟩ : Fin 96) j)) (fun a j => W1 (ix2 (⟨32 + a.val, by omega⟩ : Fin 96) j))
          (fun a j => W1 (ix2 (⟨64 + a.val, by omega⟩ : Fin 96) j)) (fun j => b1 (ix1 j)) k' := fun k' => by
    rw [joined_three (fun c => cat (ix2 r c)) (fun c j => W1 (ix2 c j)) (fun j => b1 (ix1 j)) k']
    simp only [h0, h1, h2]
  simp only [hj]

/-- The node result at (r, q) from the joined rows `cat` (node features, aggregated messages side by
    side) contracted once against the whole first matrix. -/
theorem nodeOut_joined (cat : Arr 100000 64) (nf agg : Arr 100000 32) (W1 : Arr 64 64) (b1 : Vec1 64) (W2 : Arr 64 64)
    (b2 : Vec1 64) (W3 : Arr 64 32) (b3 : Vec1 32)
    (h0 : ∀ (r : Fin 100000) (a : Fin 32), cat (ix2 r (⟨a.val, by omega⟩ : Fin 64)) = nf (ix2 r a))
    (h1 : ∀ (r : Fin 100000) (a : Fin 32), cat (ix2 r (⟨32 + a.val, by omega⟩ : Fin 64)) = agg (ix2 r a))
    (r : Fin 100000) (q : Fin 32) :
    max ((∑ k : Fin 64, max ((∑ k' : Fin 64, max ((∑ c : Fin 64, cat (ix2 r c) * W1 (ix2 c k')) + b1 (ix1 k')) 0
        * W2 (ix2 k' k)) + b2 (ix1 k)) 0 * W3 (ix2 k q)) + b3 (ix1 q)) 0
      = nodeOut nf agg W1 b1 W2 b2 W3 b3 (ix2 r q) := by
  unfold nodeOut
  rw [nodeArr_ix2]
  unfold nodeRow tail relu
  simp only [asRow_ix2, band_ix2, Nat.zero_add]
  have hj : ∀ k' : Fin 64, (∑ c : Fin 64, cat (ix2 r c) * W1 (ix2 c k')) + b1 (ix1 k')
      = pre2 (fun a => nf (ix2 r a)) (fun a => agg (ix2 r a))
          (fun a j => W1 (ix2 (⟨a.val, by omega⟩ : Fin 64) j)) (fun a j => W1 (ix2 (⟨32 + a.val, by omega⟩ : Fin 64) j))
          (fun j => b1 (ix1 j)) k' := fun k' => by
    rw [joined_two (fun c => cat (ix2 r c)) (fun c j => W1 (ix2 c j)) (fun j => b1 (ix1 j)) k']
    simp only [h0, h1]
  simp only [hj]

end Mpnn

end
-- ==== Proof.KernelHost.lean ====
/-
  From the run's last contents back to the arguments.

  The edge result is not touched after the edge perceptron's grid, so at the end it still holds what
  that grid left; the node result holds what the node perceptron's grid left.  Each grid's value is the
  perceptron applied row by row to the arrays the grid found on entry, and those arrays are read
  through the host stretch before it: a band of 32 rows sliced out of the first matrix, a bias vector
  reshaped to one row, or an argument passed through untouched.  The gathered endpoint rows and the
  scatter-added messages are kept as the arrays the grids found; what they are in terms of the
  arguments is said where the two programs are compared.
-/
import proofs.«100135_j64424509440353_2_alg».proof.Proof.KernelRegions
import proofs.«100135_j64424509440353_2_alg».proof.Proof.KernelRun
import proofs.«100135_j64424509440353_2_alg».proof.Proof.MpnnLayer
import Idealize.ShloMosaic.Lib.StableHlo.Run
import Idealize.ShloMosaic.Lib.ValueLayout

set_option maxRecDepth 16384

noncomputable section

namespace Cert.KernelIdeal.RunValue

open Cert.KernelIdeal Cert.KernelIdeal.Gen
open Idealize.ShloMosaic Idealize.ShloMosaic.TcCoe Idealize.ShloMosaic.Tactic Idealize.ShloMosaic.ValueIdx Idealize.SL.Sem
open Idealize.ShloMosaic.StableHlo

variable (m : (ℓ : Loc nD τ sig) → Buf (Elt Ideal) ℓ) (ρ : Dev nD → PrngReg)

/-! ## What the edge perceptron's grid finds -/

theorem entry0_ef (c : Dev nD) : (V1 m ρ c main_arg1 : S1600000x32.Idx → EReal) = (m ((c : Thread nD τ).loc main_arg1)) := by
  dsimp only [V1, W1]
  after_results
  try rfl

theorem entry0_W2 (c : Dev nD) : (V1 m ρ c main_arg6 : S64x64.Idx → EReal) = (m ((c : Thread nD τ).loc main_arg6)) := by
  dsimp only [V1, W1]
  after_results
  try rfl

theorem entry0_W3 (c : Dev nD) : (V1 m ρ c main_arg8 : S64x32.Idx → EReal) = (m ((c : Thread nD τ).loc main_arg8)) := by
  dsimp only [V1, W1]
  after_results
  try rfl

/-- Rows 0–31 of the 96-row first matrix, as the grid finds them. -/
theorem entry0_band0 (c : Dev nD) (a : Fin 32) (j : Fin 64) :
    (V1 m ρ c main_v15 : S32x64.Idx → EReal) (ix2 a j)
      = ((m ((c : Thread nD τ).loc main_arg4)) : S96x64.Idx → EReal) (ix2 (⟨0 + a.val, by omega⟩ : Fin 96) j) := by
  have e : (V1 m ρ c main_v15 : S32x64.Idx → EReal)
      = extractStridedSlice S32x64 ![0, 0] ((m ((c : Thread nD τ).loc main_arg4)) : S96x64.Idx → EReal) slices_S96x64_S32x64_0_0 := by
    dsimp only [V1, W1]
    after_results
    try rfl
  rw [e]
  refine extractStridedSlice_apply _ _ _ _ _ fun ax => ?_
  match ax with
  | ⟨0, _⟩ => rfl
  | ⟨1, _⟩ => show j.val = 0 + j.val; omega

/-- Rows 32–63 of the 96-row first matrix, as the grid finds them. -/
theorem entry0_band1 (c : Dev nD) (a : Fin 32) (j : Fin 64) :
    (V1 m ρ c main_v16 : S32x64.Idx → EReal) (ix2 a j)
      = ((m ((c : Thread nD τ).loc main_arg4)) : S96x64.Idx → EReal) (ix2 (⟨32 + a.val, by omega⟩ : Fin 96) j) := by
  have e : (V1 m ρ c main_v16 : S32x64.Idx → EReal)
      = extractStridedSlice S32x64 ![32, 0] ((m ((c : Thread nD τ).loc main_arg4)) : S96x64.Idx → EReal) slices_S96x64_S32x64_32_0 := by
    dsimp only [V1, W1]
    after_results
    try rfl
  rw [e]
  refine extractStridedSlice_apply _ _ _ _ _ fun ax => ?_
  match ax with
  | ⟨0, _⟩ => rfl
  | ⟨1, _⟩ => show j.val = 0 + j.val; omega

/-- Rows 64–95 of the 96-row first matrix, as the grid finds them. -/
theorem entry0_band2 (c : Dev nD) (a : Fin 32) (j : Fin 64) :
    (V1 m ρ c main_v17 : S32x64.Idx → EReal) (ix2 a j)
      = ((m ((c : Thread nD τ).loc main_arg4)) : S96x64.Idx → EReal) (ix2 (⟨64 + a.val, by omega⟩ : Fin 96) j) := by
  have e : (V1 m ρ c main_v17 : S32x64.Idx → EReal)
      = extractStridedSlice S32x64 ![64, 0] ((m ((c : Thread nD τ).loc main_arg4)) : S96x64.Idx → EReal) slices_S96x64_S32x64_64_0 := by
    dsimp only [V1, W1]
    after_results
    try rfl
  rw [e]
  refine extractStridedSlice_apply _ _ _ _ _ fun ax => ?_
  match ax with
  | ⟨0, _⟩ => rfl
  | ⟨1, _⟩ => show j.val = 0 + j.val; omega

/-- A bias vector of 64 entries enters its grid as the one row of a 1×64 matrix. -/
theorem entry0_b1 (c : Dev nD) (j : Fin 64) :
    (V1 m ρ c main_v18 : S1x64.Idx → EReal) (ix2 (0 : Fin 1) j) = ((m ((c : Thread nD τ).loc main_arg5)) : S64.Idx → EReal) (ix1 j) := by
  have e : (V1 m ρ c main_v18 : S1x64.Idx → EReal)
      = shapeCast S1x64 ((m ((c : Thread nD τ).loc main_arg5)) : S64.Idx → EReal) shapeCasts_S64_S1x64 := by
    dsimp only [V1, W1]
    after_results
    try rfl
  rw [e]
  exact shapeCast_a_1a_apply _ _ _ _

/-- A bias vector of 64 entries enters its grid as the one row of a 1×64 matrix. -/
theorem entry0_b2 (c : Dev nD) (j : Fin 64) :
    (V1 m ρ c main_v19 : S1x64.Idx → EReal) (ix2 (0 : Fin 1) j) = ((m ((c : Thread nD τ).loc main_arg7)) : S64.Idx → EReal) (ix1 j) := by
  have e : (V1 m ρ c main_v19 : S1x64.Idx → EReal)
      = shapeCast S1x64 ((m ((c : Thread nD τ).loc main_arg7)) : S64.Idx → EReal) shapeCasts_S64_S1x64 := by
    dsimp only [V1, W1]
    after_results
    try rfl
  rw [e]
  exact shapeCast_a_1a_apply _ _ _ _

/-- A bias vector of 32 entries enters its grid as the one row of a 1×32 matrix. -/
theorem entry0_b3 (c : Dev nD) (j : Fin 32) :
    (V1 m ρ c main_v20 : S1x32.Idx → EReal) (ix2 (0 : Fin 1) j) = ((m ((c : Thread nD τ).loc main_arg9)) : S32.Idx → EReal) (ix1 j) := by
  have e : (V1 m ρ c main_v20 : S1x32.Idx → EReal)
      = shapeCast S1x32 ((m ((c : Thread nD τ).loc main_arg9)) : S32.Idx → EReal) shapeCasts_S32_S1x32 := by
    dsimp only [V1, W1]
    after_results
    try rfl
  rw [e]
  exact shapeCast_a_1a_apply _ _ _ _

/-! ## What the node perceptron's grid finds -/

theorem W2_arg0 (c : Dev nD) : W2 m ρ c (Proc.devRef .tc main_arg0) = (m ((c : Thread nD τ).loc main_arg0)) :=
  (W2_of_ne m ρ c main_arg0 (by decide)).trans (by dsimp only [W1]; after_results; try rfl)

theorem W2_arg3 (c : Dev nD) : W2 m ρ c (Proc.devRef .tc main_arg3) = (m ((c : Thread nD τ).loc main_arg3)) :=
  (W2_of_ne m ρ c main_arg3 (by decide)).trans (by dsimp only [W1]; after_results; try rfl)

theorem W2_arg10 (c : Dev nD) : W2 m ρ c (Proc.devRef .tc main_arg10) = (m ((c : Thread nD τ).loc main_arg10)) :=
  (W2_of_ne m ρ c main_arg10 (by decide)).trans (by dsimp only [W1]; after_results; try rfl)

theorem W2_arg11 (c : Dev nD) : W2 m ρ c (Proc.devRef .tc main_arg11) = (m ((c : Thread nD τ).loc main_arg11)) :=
  (W2_of_ne m ρ c main_arg11 (by decide)).trans (by dsimp only [W1]; after_results; try rfl)

theorem W2_arg12 (c : Dev nD) : W2 m ρ c (Proc.devRef .tc main_arg12) = (m ((c : Thread nD τ).loc main_arg12)) :=
  (W2_of_ne m ρ c main_arg12 (by decide)).trans (by dsimp only [W1]; after_results; try rfl)

theorem W2_arg13 (c : Dev nD) : W2 m ρ c (Proc.devRef .tc main_arg13) = (m ((c : Thread nD τ).loc main_arg13)) :=
  (W2_of_ne m ρ c main_arg13 (by decide)).trans (by dsimp only [W1]; after_results; try rfl)

theorem W2_arg14 (c : Dev nD) : W2 m ρ c (Proc.devRef .tc main_arg14) = (m ((c : Thread nD τ).loc main_arg14)) :=
  (W2_of_ne m ρ c main_arg14 (by decide)).trans (by dsimp only [W1]; after_results; try rfl)

theorem W2_arg15 (c : Dev nD) : W2 m ρ c (Proc.devRef .tc main_arg15) = (m ((c : Thread nD τ).loc main_arg15)) :=
  (W2_of_ne m ρ c main_arg15 (by decide)).trans (by dsimp only [W1]; after_results; try rfl)

theorem entry1_nf (c : Dev nD) : (V3 m ρ c main_arg0 : S100000x32.Idx → EReal) = (m ((c : Thread nD τ).loc main_arg0)) := by
  dsimp only [V3, W3]
  after_results
  rw [W2_arg0 m ρ c]

theorem entry1_W2 (c : Dev nD) : (V3 m ρ c main_arg12 : S64x64.Idx → EReal) = (m ((c : Thread nD τ).loc main_arg12)) := by
  dsimp only [V3, W3]
  after_results
  rw [W2_arg12 m ρ c]

theorem entry1_W3 (c : Dev nD) : (V3 m ρ c main_arg14 : S64x32.Idx → EReal) = (m ((c : Thread nD τ).loc main_arg14)) := by
  dsimp only [V3, W3]
  after_results
  rw [W2_arg14 m ρ c]

/-- Rows 0–31 of the 64-row first matrix, as the grid finds them. -/
theorem entry1_band0 (c : Dev nD) (a : Fin 32) (j : Fin 64) :
    (V3 m ρ c main_v25 : S32x64.Idx → EReal) (ix2 a j)
      = ((m ((c : Thread nD τ).loc main_arg10)) : S64x64.Idx → EReal) (ix2 (⟨0 + a.val, by omega⟩ : Fin 64) j) := by
  have e : (V3 m ρ c main_v25 : S32x64.Idx → EReal)
      = extractStridedSlice S32x64 ![0, 0] ((m ((c : Thread nD τ).loc main_arg10)) : S64x64.Idx → EReal) slices_S64x64_S32x64_0_0 := by
    dsimp only [V3, W3]
    after_results
    rw [W2_arg10 m ρ c]
    try rfl
  rw [e]
  refine extractStridedSlice_apply _ _ _ _ _ fun ax => ?_
  match ax with
  | ⟨0, _⟩ => rfl
  | ⟨1, _⟩ => show j.val = 0 + j.val; omega

/-- Rows 32–63 of the 64-row first matrix, as the grid finds them. -/
theorem entry1_band1 (c : Dev nD) (a : Fin 32) (j : Fin 64) :
    (V3 m ρ c main_v26 : S32x64.Idx → EReal) (ix2 a j)
      = ((m ((c : Thread nD τ).loc main_arg10)) : S64x64.Idx → EReal) (ix2 (⟨32 + a.val, by omega⟩ : Fin 64) j) := by
  have e : (V3 m ρ c main_v26 : S32x64.Idx → EReal)
      = extractStridedSlice S32x64 ![32, 0] ((m ((c : Thread nD τ).loc main_arg10)) : S64x64.Idx → EReal) slices_S64x64_S32x64_32_0 := by
    dsimp only [V3, W3]
    after_results
    rw [W2_arg10 m ρ c]
    try rfl
  rw [e]
  refine extractStridedSlice_apply _ _ _ _ _ fun ax => ?_
  match ax with
  | ⟨0, _⟩ => rfl
  | ⟨1, _⟩ => show j.val = 0 + j.val; omega

/-- A bias vector of 64 entries enters its grid as the one row of a 1×64 matrix. -/
theorem entry1_b1 (c : Dev nD) (j : Fin 64) :
    (V3 m ρ c main_v27 : S1x64.Idx → EReal) (ix2 (0 : Fin 1) j) = ((m ((c : Thread nD τ).loc main_arg11)) : S64.Idx → EReal) (ix1 j) := by
  have e : (V3 m ρ c main_v27 : S1x64.Idx → EReal)
      = shapeCast S1x64 ((m ((c : Thread nD τ).loc main_arg11)) : S64.Idx → EReal) shapeCasts_S64_S1x64 := by
    dsimp only [V3, W3]
    after_results
    rw [W2_arg11 m ρ c]
    rfl
  rw [e]
  exact shapeCast_a_1a_apply _ _ _ _

/-- A bias vector of 64 entries enters its grid as the one row of a 1×64 matrix. -/
theorem entry1_b2 (c : Dev nD) (j : Fin 64) :
    (V3 m ρ c main_v28 : S1x64.Idx → EReal) (ix2 (0 : Fin 1) j) = ((m ((c : Thread nD τ).loc main_arg13)) : S64.Idx → EReal) (ix1 j) := by
  have e : (V3 m ρ c main_v28 : S1x64.Idx → EReal)
      = shapeCast S1x64 ((m ((c : Thread nD τ).loc main_arg13)) : S64.Idx → EReal) shapeCasts_S64_S1x64 := by
    dsimp only [V3, W3]
    after_results
    rw [W2_arg13 m ρ c]
    rfl
  rw [e]
  exact shapeCast_a_1a_apply _ _ _ _

/-- A bias vector of 32 entries enters its grid as the one row of a 1×32 matrix. -/
theorem entry1_b3 (c : Dev nD) (j : Fin 32) :
    (V3 m ρ c main_v29 : S1x32.Idx → EReal) (ix2 (0 : Fin 1) j) = ((m ((c : Thread nD τ).loc main_arg15)) : S32.Idx → EReal) (ix1 j) := by
  have e : (V3 m ρ c main_v29 : S1x32.Idx → EReal)
      = shapeCast S1x32 ((m ((c : Thread nD τ).loc main_arg15)) : S32.Idx → EReal) shapeCasts_S32_S1x32 := by
    dsimp only [V3, W3]
    after_results
    rw [W2_arg15 m ρ c]
    rfl
  rw [e]
  exact shapeCast_a_1a_apply _ _ _ _

/-! ## The two results at the end of the run -/

/-- When the edge perceptron's grid is left, the edge result holds `edgeOut` of the gathered endpoint rows
    that grid found, the edge features and the edge perceptron's parameters. -/
theorem edge_mid (c : Dev nD) :
    (W2 m ρ c (Proc.devRef .tc main_v21) : S1600000x32.Idx → EReal)
      = Mpnn.edgeOut (V1 m ρ c main_v7 : S1600000x32.Idx → EReal) (V1 m ρ c main_v14 : S1600000x32.Idx → EReal)
          (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W2_arr m ρ c 11).trans ?_
  refine (Region.value0 (V1 m ρ) c).trans ?_
  rw [entry0_ef m ρ c, entry0_W2 m ρ c, entry0_W3 m ρ c]
  exact Mpnn.edgeArr_eq_edgeOut _ _ _ _ _ _ _ _ _ _ _ _ _ _ _
    (entry0_band0 m ρ c) (entry0_band1 m ρ c) (entry0_band2 m ρ c) (entry0_b1 m ρ c) (entry0_b2 m ρ c) (entry0_b3 m ρ c)

/-- Nothing after that grid writes the edge result, so it ends the run with the same contents. -/
theorem edge_exit (c : Dev nD) :
    (W4 m ρ c (Proc.devRef .tc main_v21) : S1600000x32.Idx → EReal)
      = Mpnn.edgeOut (V1 m ρ c main_v7 : S1600000x32.Idx → EReal) (V1 m ρ c main_v14 : S1600000x32.Idx → EReal)
          (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h1 : W4 m ρ c (Proc.devRef .tc main_v21) = W3 m ρ c (Proc.devRef .tc main_v21) := W4_of_ne m ρ c main_v21 (by decide)
  have h2 : W3 m ρ c (Proc.devRef .tc main_v21) = W2 m ρ c (Proc.devRef .tc main_v21) :=
    StableHlo.after_of_forall_not_mem (b := Proc.devRef .tc main_v21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  exact (h1.trans h2).trans (edge_mid m ρ c)

/-- The node result ends as the node perceptron's grid left it: `nodeOut` of the node features, the
    scatter-added messages that grid found, and the node perceptron's parameters. -/
theorem node_exit (c : Dev nD) :
    (W4 m ρ c (Proc.devRef .tc main_v30) : S100000x32.Idx → EReal)
      = Mpnn.nodeOut (m ((c : Thread nD τ).loc main_arg0)) (V3 m ρ c main_v24 : S100000x32.Idx → EReal)
          (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W4_arr m ρ c 9).trans ?_
  refine (Region.value1 (V3 m ρ) c).trans ?_
  rw [entry1_nf m ρ c, entry1_W2 m ρ c, entry1_W3 m ρ c]
  exact Mpnn.nodeArr_eq_nodeOut _ _ _ _ _ _ _ _ _ _ _ _ _
    (entry1_band0 m ρ c) (entry1_band1 m ρ c) (entry1_b1 m ρ c) (entry1_b2 m ρ c) (entry1_b3 m ρ c)

end Cert.KernelIdeal.RunValue

end
-- ==== Proof.RefValue.lean ====
/-
  The reference program, one layer at a time, and its two results.

  The reference lays each edge's inputs side by side (gathered source row, gathered destination row,
  edge features: 96 entries), contracts once against the 96×64 matrix, adds the bias, takes the larger
  of each entry and zero, and repeats with the 64×64 and the 64×32 matrix; it then scatter-adds the
  edge results into their destination nodes, lays each node's features beside the sum that arrived at
  it (64 entries) and runs the node perceptron the same way.  Read entry by entry, each layer is a
  sum over its contracted axis plus a bias entry; the one sum over the joined axis splits into its runs
  (`edgeOut_joined`, `nodeOut_joined`), so the results are `edgeOut` and `nodeOut` of the gathered rows
  and of the scatter-added messages.
-/
import proofs.«100135_j64424509440353_2_alg».proof.Proof.Gen.ReferenceIdeal.Read
import proofs.«100135_j64424509440353_2_alg».proof.Proof.MpnnLayer
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

variable (x0 : (⟨S100000x32, .f32⟩ : BufTy).Contents (Elt Ideal)) (x1 : (⟨S1600000x32, .f32⟩ : BufTy).Contents (Elt Ideal))
  (x2 x3 : (⟨S1600000, .i32⟩ : BufTy).Contents (Elt Ideal)) (x4 : (⟨S96x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal)) (x8 : (⟨S64x32, .f32⟩ : BufTy).Contents (Elt Ideal))
  (x9 : (⟨S32, .f32⟩ : BufTy).Contents (Elt Ideal)) (x10 : (⟨S64x64, .f32⟩ : BufTy).Contents (Elt Ideal))
  (x11 : (⟨S64, .f32⟩ : BufTy).Contents (Elt Ideal)) (x12 : (⟨S64x64, .f32⟩ : BufTy).Contents (Elt Ideal))
  (x13 : (⟨S64, .f32⟩ : BufTy).Contents (Elt Ideal)) (x14 : (⟨S64x32, .f32⟩ : BufTy).Contents (Elt Ideal))
  (x15 : (⟨S32, .f32⟩ : BufTy).Contents (Elt Ideal))

/-! ## The joined rows, piece by piece -/

/-- Positions 0–31 of an edge's joined row are the gathered source row. -/
theorem cat_src (r : Fin 1600000) (a : Fin 32) :
    val_main_v14 (F := Ideal) x0 x1 x2 x3 (ix2 r (⟨a.val, by omega⟩ : Fin 96)) = val_main_v6 (F := Ideal) x0 x2 (ix2 r a) := by
  unfold val_main_v14
  refine concatenate_apply_piece (t := S1600000x96) _ _ _ _ 0 ?_ S1600000x32 _ ?_ ?_ 0 ?_ (ix2 r a) ?_ ?_
  · show 0 < 3; decide
  · rfl
  · rfl
  · rfl
  · intro b hb
    match b with
    | ⟨0, _⟩ => rfl
    | ⟨1, _⟩ => exact absurd rfl hb
  · show 0 + a.val = a.val; omega

/-- Positions 32–63 are the gathered destination row. -/
theorem cat_dst (r : Fin 1600000) (a : Fin 32) :
    val_main_v14 (F := Ideal) x0 x1 x2 x3 (ix2 r (⟨32 + a.val, by omega⟩ : Fin 96)) = val_main_v13 (F := Ideal) x0 x3 (ix2 r a) := by
  unfold val_main_v14
  refine concatenate_apply_piece (t := S1600000x96) _ _ _ _ 1 ?_ S1600000x32 _ ?_ ?_ 32 ?_ (ix2 r a) ?_ ?_
  · show 1 < 3; decide
  · rfl
  · rfl
  · rfl
  · intro b hb
    match b with
    | ⟨0, _⟩ => rfl
    | ⟨1, _⟩ => exact absurd rfl hb
  · rfl

/-- Positions 64–95 are the edge's own features. -/
theorem cat_edge (r : Fin 1600000) (a : Fin 32) :
    val_main_v14 (F := Ideal) x0 x1 x2 x3 (ix2 r (⟨64 + a.val, by omega⟩ : Fin 96)) = x1 (ix2 r a) := by
  unfold val_main_v14
  refine concatenate_apply_piece (t := S1600000x96) _ _ _ _ 2 ?_ S1600000x32 _ ?_ ?_ 64 ?_ (ix2 r a) ?_ ?_
  · show 2 < 3; decide
  · rfl
  · rfl
  · rfl
  · intro b hb
    match b with
    | ⟨0, _⟩ => rfl
    | ⟨1, _⟩ => exact absurd rfl hb
  · rfl

/-- Positions 0–31 of a node's joined row are the node's features. -/
theorem cat_node (r : Fin 100000) (a : Fin 32) :
    val_main_v33 (F := Ideal) x0 x1 x2 x3 x4 x5 x6 x7 x8 x9 (ix2 r (⟨a.val, by omega⟩ : Fin 64)) = x0 (ix2 r a) := by
  unfold val_main_v33
  refine concatenate_apply_piece (t := S100000x64) _ _ _ _ 0 ?_ S100000x32 _ ?_ ?_ 0 ?_ (ix2 r a) ?_ ?_
  · show 0 < 2; decide
  · rfl
  · rfl
  · rfl
  · intro b hb
    match b with
    | ⟨0, _⟩ => rfl
    | ⟨1, _⟩ => exact absurd rfl hb
  · show 0 + a.val = a.val; omega

/-- Positions 32–63 are the messages summed at the node. -/
theorem cat_agg (r : Fin 100000) (a : Fin 32) :
    val_main_v33 (F := Ideal) x0 x1 x2 x3 x4 x5 x6 x7 x8 x9 (ix2 r (⟨32 + a.val, by omega⟩ : Fin 64)) = val_main_v32 (F := Ideal) x0 x1 x2 x3 x4 x5 x6 x7 x8 x9 (ix2 r a) := by
  unfold val_main_v33
  refine concatenate_apply_piece (t := S100000x64) _ _ _ _ 1 ?_ S100000x32 _ ?_ ?_ 32 ?_ (ix2 r a) ?_ ?_
  · show 1 < 2; decide
  · rfl
  · rfl
  · rfl
  · intro b hb
    match b with
    | ⟨0, _⟩ => rfl
    | ⟨1, _⟩ => exact absurd rfl hb
  · rfl

/-! ## The edge perceptron, layer by layer -/

/-- Layer one before its activation: the joined row against the first matrix, plus the bias. -/
theorem edge_l1 (r : Fin 1600000) (j : Fin 64) :
    val_main_v18 (F := Ideal) x0 x1 x2 x3 x4 x5 (ix2 r j)
      = (∑ k : Fin 96, val_main_v14 (F := Ideal) x0 x1 x2 x3 (ix2 r k) * x4 (ix2 k j)) + x5 (ix1 j) := by
  rw [val_main_v18_apply, val_main_v15_apply, val_main_v17_apply, val_main_v16_apply]
  have el : ∀ k : Fin 96, lidx_main_v15 (ix2 r j : S1600000x64.Idx) k = (ix2 r k : S1600000x96.Idx) := fun _ => funext fun ax => Fin.ext (by match ax with | ⟨0, _⟩ => rfl | ⟨1, _⟩ => rfl)
  have er : ∀ k : Fin 96, ridx_main_v15 (ix2 r j : S1600000x64.Idx) k = (ix2 k j : S96x64.Idx) := fun _ => funext fun ax => Fin.ext (by match ax with | ⟨0, _⟩ => rfl | ⟨1, _⟩ => rfl)
  have eb : idx_main_v16 (idx_main_v17 (ix2 r j : S1600000x64.Idx)) = (ix1 j : S64.Idx) := funext fun ax => Fin.ext (by match ax with | ⟨0, _⟩ => rfl)
  simp only [el, er, eb, Ideal.maximumf_def, Ideal.addf_def, Ideal.ofBits_def, Ideal.ofBits_zero_f32]

/-- The activation after layer one. -/
theorem edge_a1 (r : Fin 1600000) (j : Fin 64) :
    val_main_v19 (F := Ideal) x0 x1 x2 x3 x4 x5 (ix2 r j) = max (val_main_v18 (F := Ideal) x0 x1 x2 x3 x4 x5 (ix2 r j)) 0 := by
  rw [val_main_v19_apply, val_main_call0_v0_apply, val_main_call0_cst_apply]
  simp only [Ideal.maximumf_def, Ideal.addf_def, Ideal.ofBits_def, Ideal.ofBits_zero_f32]

/-- Layer two before its activation. -/
theorem edge_l2 (r : Fin 1600000) (j : Fin 64) :
    val_main_v23 (F := Ideal) x0 x1 x2 x3 x4 x5 x6 x7 (ix2 r j)
      = (∑ k : Fin 64, max (val_main_v18 (F := Ideal) x0 x1 x2 x3 x4 x5 (ix2 r k)) 0 * x6 (ix2 k j)) + x7 (ix1 j) := by
  rw [val_main_v23_apply, val_main_v20_apply, val_main_v22_apply, val_main_v21_apply]
  have el : ∀ k : Fin 64, lidx_main_v20 (ix2 r j : S1600000x64.Idx) k = (ix2 r k : S1600000x64.Idx) := fun _ => funext fun ax => Fin.ext (by match ax with | ⟨0, _⟩ => rfl | ⟨1, _⟩ => rfl)
  have er : ∀ k : Fin 64, ridx_main_v20 (ix2 r j : S1600000x64.Idx) k = (ix2 k j : S64x64.Idx) := fun _ => funext fun ax => Fin.ext (by match ax with | ⟨0, _⟩ => rfl | ⟨1, _⟩ => rfl)
  have eb : idx_main_v21 (idx_main_v22 (ix2 r j : S1600000x64.Idx)) = (ix1 j : S64.Idx) := funext fun ax => Fin.ext (by match ax with | ⟨0, _⟩ => rfl)
  simp only [el, er, eb, edge_a1, Ideal.maximumf_def, Ideal.addf_def, Ideal.ofBits_def, Ideal.ofBits_zero_f32]

/-- The activation after layer two. -/
theorem edge_a2 (r : Fin 1600000) (j : Fin 64) :
    val_main_v24 (F := Ideal) x0 x1 x2 x3 x4 x5 x6 x7 (ix2 r j) = max (val_main_v23 (F := Ideal) x0 x1 x2 x3 x4 x5 x6 x7 (ix2 r j)) 0 := by
  rw [val_main_v24_apply, val_main_call1_v0_apply, val_main_call1_cst_apply]
  simp only [Ideal.maximumf_def, Ideal.addf_def, Ideal.ofBits_def, Ideal.ofBits_zero_f32]

/-- Layer three before its activation. -/
theorem edge_l3 (r : Fin 1600000) (j : Fin 32) :
    val_main_v28 (F := Ideal) x0 x1 x2 x3 x4 x5 x6 x7 x8 x9 (ix2 r j)
      = (∑ k : Fin 64, max (val_main_v23 (F := Ideal) x0 x1 x2 x3 x4 x5 x6 x7 (ix2 r k)) 0 * x8 (ix2 k j)) + x9 (ix1 j) := by
  rw [val_main_v28_apply, val_main_v25_apply, val_main_v27_apply, val_main_v26_apply]
  have el : ∀ k : Fin 64, lidx_main_v25 (ix2 r j : S1600000x32.Idx) k = (ix2 r k : S1600000x64.Idx) := fun _ => funext fun ax => Fin.ext (by match ax with | ⟨0, _⟩ => rfl | ⟨1, _⟩ => rfl)
  have er : ∀ k : Fin 64, ridx_main_v25 (ix2 r j : S1600000x32.Idx) k = (ix2 k j : S64x32.Idx) := fun _ => funext fun ax => Fin.ext (by match ax with | ⟨0, _⟩ => rfl | ⟨1, _⟩ => rfl)
  have eb : idx_main_v26 (idx_main_v27 (ix2 r j : S1600000x32.Idx)) = (ix1 j : S32.Idx) := funext fun ax => Fin.ext (by match ax with | ⟨0, _⟩ => rfl)
  simp only [el, er, eb, edge_a2, Ideal.maximumf_def, Ideal.addf_def, Ideal.ofBits_def, Ideal.ofBits_zero_f32]

/-- The reference's edge result is `edgeOut` of its gathered endpoint rows. -/
theorem edge_result :
    val_main_v29 (F := Ideal) x0 x1 x2 x3 x4 x5 x6 x7 x8 x9
      = Mpnn.edgeOut (val_main_v6 (F := Ideal) x0 x2) (val_main_v13 (F := Ideal) x0 x3) x1 x4 x5 x6 x7 x8 x9 := by
  funext i
  obtain ⟨r, q, rfl⟩ : ∃ (r : Fin 1600000) (q : Fin 32), i = ix2 r q := ⟨i 0, i 1, eq_ix2 i⟩
  rw [val_main_v29_apply, val_main_call2_v0_apply, val_main_call2_cst_apply]
  simp only [edge_l3, edge_l2, edge_l1, Ideal.maximumf_def, Ideal.addf_def, Ideal.ofBits_def, Ideal.ofBits_zero_f32]
  exact Mpnn.edgeOut_joined _ _ _ _ _ _ _ _ _ _ (cat_src x0 x1 x2 x3) (cat_dst x0 x1 x2 x3) (cat_edge x0 x1 x2 x3) r q

/-! ## The node perceptron, layer by layer -/

/-- Layer one before its activation: the joined row against the first matrix, plus the bias. -/
theorem node_l1 (r : Fin 100000) (j : Fin 64) :
    val_main_v37 (F := Ideal) x0 x1 x2 x3 x4 x5 x6 x7 x8 x9 x10 x11 (ix2 r j)
      = (∑ k : Fin 64, val_main_v33 (F := Ideal) x0 x1 x2 x3 x4 x5 x6 x7 x8 x9 (ix2 r k) * x10 (ix2 k j)) + x11 (ix1 j) := by
  rw [val_main_v37_apply, val_main_v34_apply, val_main_v36_apply, val_main_v35_apply]
  have el : ∀ k : Fin 64, lidx_main_v34 (ix2 r j : S100000x64.Idx) k = (ix2 r k : S100000x64.Idx) := fun _ => funext fun ax => Fin.ext (by match ax with | ⟨0, _⟩ => rfl | ⟨1, _⟩ => rfl)
  have er : ∀ k : Fin 64, ridx_main_v34 (ix2 r j : S100000x64.Idx) k = (ix2 k j : S64x64.Idx) := fun _ => funext fun ax => Fin.ext (by match ax with | ⟨0, _⟩ => rfl | ⟨1, _⟩ => rfl)
  have eb : idx_main_v35 (idx_main_v36 (ix2 r j : S100000x64.Idx)) = (ix1 j : S64.Idx) := funext fun ax => Fin.ext (by match ax with | ⟨0, _⟩ => rfl)
  simp only [el, er, eb, Ideal.maximumf_def, Ideal.addf_def, Ideal.ofBits_def, Ideal.ofBits_zero_f32]

/-- The activation after layer one. -/
theorem node_a1 (r : Fin 100000) (j : Fin 64) :
    val_main_v38 (F := Ideal) x0 x1 x2 x3 x4 x5 x6 x7 x8 x9 x10 x11 (ix2 r j) = max (val_main_v37 (F := Ideal) x0 x1 x2 x3 x4 x5 x6 x7 x8 x9 x10 x11 (ix2 r j)) 0 := by
  rw [val_main_v38_apply, val_main_call3_v0_apply, val_main_call3_cst_apply]
  simp only [Ideal.maximumf_def, Ideal.addf_def, Ideal.ofBits_def, Ideal.ofBits_zero_f32]

/-- Layer two before its activation. -/
theorem node_l2 (r : Fin 100000) (j : Fin 64) :
    val_main_v42 (F := Ideal) x0 x1 x2 x3 x4 x5 x6 x7 x8 x9 x10 x11 x12 x13 (ix2 r j)
      = (∑ k : Fin 64, max (val_main_v37 (F := Ideal) x0 x1 x2 x3 x4 x5 x6 x7 x8 x9 x10 x11 (ix2 r k)) 0 * x12 (ix2 k j)) + x13 (ix1 j) := by
  rw [val_main_v42_apply, val_main_v39_apply, val_main_v41_apply, val_main_v40_apply]
  have el : ∀ k : Fin 64, lidx_main_v39 (ix2 r j : S100000x64.Idx) k = (ix2 r k : S100000x64.Idx) := fun _ => funext fun ax => Fin.ext (by match ax with | ⟨0, _⟩ => rfl | ⟨1, _⟩ => rfl)
  have er : ∀ k : Fin 64, ridx_main_v39 (ix2 r j : S100000x64.Idx) k = (ix2 k j : S64x64.Idx) := fun _ => funext fun ax => Fin.ext (by match ax with | ⟨0, _⟩ => rfl | ⟨1, _⟩ => rfl)
  have eb : idx_main_v40 (idx_main_v41 (ix2 r j : S100000x64.Idx)) = (ix1 j : S64.Idx) := funext fun ax => Fin.ext (by match ax with | ⟨0, _⟩ => rfl)
  simp only [el, er, eb, node_a1, Ideal.maximumf_def, Ideal.addf_def, Ideal.ofBits_def, Ideal.ofBits_zero_f32]

/-- The activation after layer two. -/
theorem node_a2 (r : Fin 100000) (j : Fin 64) :
    val_main_v43 (F := Ideal) x0 x1 x2 x3 x4 x5 x6 x7 x8 x9 x10 x11 x12 x13 (ix2 r j) = max (val_main_v42 (F := Ideal) x0 x1 x2 x3 x4 x5 x6 x7 x8 x9 x10 x11 x12 x13 (ix2 r j)) 0 := by
  rw [val_main_v43_apply, val_main_call4_v0_apply, val_main_call4_cst_apply]
  simp only [Ideal.maximumf_def, Ideal.addf_def, Ideal.ofBits_def, Ideal.ofBits_zero_f32]

/-- Layer three before its activation. -/
theorem node_l3 (r : Fin 100000) (j : Fin 32) :
    val_main_v47 (F := Ideal) x0 x1 x2 x3 x4 x5 x6 x7 x8 x9 x10 x11 x12 x13 x14 x15 (ix2 r j)
      = (∑ k : Fin 64, max (val_main_v42 (F := Ideal) x0 x1 x2 x3 x4 x5 x6 x7 x8 x9 x10 x11 x12 x13 (ix2 r k)) 0 * x14 (ix2 k j)) + x15 (ix1 j) := by
  rw [val_main_v47_apply, val_main_v44_apply, val_main_v46_apply, val_main_v45_apply]
  have el : ∀ k : Fin 64, lidx_main_v44 (ix2 r j : S100000x32.Idx) k = (ix2 r k : S100000x64.Idx) := fun _ => funext fun ax => Fin.ext (by match ax with | ⟨0, _⟩ => rfl | ⟨1, _⟩ => rfl)
  have er : ∀ k : Fin 64, ridx_main_v44 (ix2 r j : S100000x32.Idx) k = (ix2 k j : S64x32.Idx) := fun _ => funext fun ax => Fin.ext (by match ax with | ⟨0, _⟩ => rfl | ⟨1, _⟩ => rfl)
  have eb : idx_main_v45 (idx_main_v46 (ix2 r j : S100000x32.Idx)) = (ix1 j : S32.Idx) := funext fun ax => Fin.ext (by match ax with | ⟨0, _⟩ => rfl)
  simp only [el, er, eb, node_a2, Ideal.maximumf_def, Ideal.addf_def, Ideal.ofBits_def, Ideal.ofBits_zero_f32]

/-- The reference's node result is `nodeOut` of the node features and its scatter-added messages. -/
theorem node_result :
    val_main_v48 (F := Ideal) x0 x1 x2 x3 x4 x5 x6 x7 x8 x9 x10 x11 x12 x13 x14 x15
      = Mpnn.nodeOut x0 (val_main_v32 (F := Ideal) x0 x1 x2 x3 x4 x5 x6 x7 x8 x9) x10 x11 x12 x13 x14 x15 := by
  funext i
  obtain ⟨r, q, rfl⟩ : ∃ (r : Fin 100000) (q : Fin 32), i = ix2 r q := ⟨i 0, i 1, eq_ix2 i⟩
  rw [val_main_v48_apply, val_main_call5_v0_apply, val_main_call5_cst_apply]
  simp only [node_l3, node_l2, node_l1, Ideal.maximumf_def, Ideal.addf_def, Ideal.ofBits_def, Ideal.ofBits_zero_f32]
  exact Mpnn.nodeOut_joined _ _ _ _ _ _ _ _ _ (cat_node x0 x1 x2 x3 x4 x5 x6 x7 x8 x9) (cat_agg x0 x1 x2 x3 x4 x5 x6 x7 x8 x9) r q

end Cert.ReferenceIdeal.RefValue

end
-- ==== Proof.Agree.lean ====
/-
  The two programs gather and scatter alike.

  Both programs wrap a negative endpoint index once by the number of nodes and gather that row of the
  node features; the kernel gathers from the table narrowed to a shorter float format, which on the
  extended reals is the same table.  Both scatter-add the edge results into a zero array at the raw
  destination indices.  So the gathered rows the edge perceptron's grid finds are the reference's
  gathered rows, and — the edge results being equal — the sums the node perceptron's grid finds are
  the reference's sums.
-/
import proofs.«100135_j64424509440353_2_alg».proof.Proof.KernelHost
import proofs.«100135_j64424509440353_2_alg».proof.Proof.RefValue

set_option maxRecDepth 16384

noncomputable section

namespace Cert.Proof.Agree

open Idealize.ShloMosaic Idealize.ShloMosaic.TcCoe Idealize.ShloMosaic.Tactic Idealize.ShloMosaic.ValueIdx Idealize.SL.Sem
open Idealize.ShloMosaic.StableHlo
open Cert.KernelIdeal.Gen Cert.KernelIdeal.RunValue Cert.ReferenceIdeal.Read

variable (m : (ℓ : Loc Cert.KernelIdeal.nD Cert.KernelIdeal.τ Cert.KernelIdeal.sig) → Buf (Elt Ideal) ℓ)
  (ρ : Dev Cert.KernelIdeal.nD → PrngReg)

/-- The source rows the edge grid finds are the reference's gathered source rows. -/
theorem gather_src (c : Dev Cert.KernelIdeal.nD) :
    (V1 m ρ c Cert.KernelIdeal.main_v7 : Cert.KernelIdeal.S1600000x32.Idx → EReal)
      = val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) := by
  obtain ⟨t, ht⟩ : ∃ t, t = val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) := ⟨_, rfl⟩
  rw [← ht]
  dsimp only [V1, W1]
  after_results
  rw [ht]
  try rfl

/-- The destination rows the edge grid finds are the reference's gathered destination rows. -/
theorem gather_dst (c : Dev Cert.KernelIdeal.nD) :
    (V1 m ρ c Cert.KernelIdeal.main_v14 : Cert.KernelIdeal.S1600000x32.Idx → EReal)
      = val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) := by
  obtain ⟨t, ht⟩ : ∃ t, t = val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) := ⟨_, rfl⟩
  rw [← ht]
  dsimp only [V1, W1]
  after_results_simp
  rw [ht]
  try rfl

/-- The kernel's edge result, in the reference's terms. -/
theorem edge_value (c : Dev Cert.KernelIdeal.nD) :
    Mpnn.edgeOut (V1 m ρ c Cert.KernelIdeal.main_v7 : Cert.KernelIdeal.S1600000x32.Idx → EReal)
        (V1 m ρ c Cert.KernelIdeal.main_v14 : Cert.KernelIdeal.S1600000x32.Idx → EReal)
        (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      = val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  rw [gather_src m ρ c, gather_dst m ρ c, Cert.ReferenceIdeal.RefValue.edge_result]

/-- The sums the node grid finds are the reference's scatter-added messages. -/
theorem scatter (c : Dev Cert.KernelIdeal.nD) :
    (V3 m ρ c Cert.KernelIdeal.main_v24 : Cert.KernelIdeal.S100000x32.Idx → EReal)
      = val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  obtain ⟨t, ht⟩ : ∃ t, t = val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := ⟨_, rfl⟩
  rw [← ht]
  dsimp only [V3, W3]
  after_results
  rw [W2_arg3 m ρ c, edge_mid m ρ c, edge_value m ρ c]
  rw [ht]
  try rfl

end Cert.Proof.Agree

end
-- ==== Proof.lean ====
/-
  One message-passing layer, kernel against reference, on the extended reals.

  The layer: for every edge, the source node's features, the destination node's features and the
  edge's own features go through a three-layer perceptron (the edge result); the edge results are
  summed at their destination nodes; for every node, its features and the sum that arrived go through
  a second three-layer perceptron (the node result).

  The kernel never lays a row's inputs side by side: it multiplies each input by its own band of 32
  rows of the first matrix and adds the products.  The reference joins the inputs and multiplies once.
  The two first layers are the same number because a finite sum over the joined axis is the sum of
  the sums over its runs — a law of any commutative additive monoid, so it holds for every extended
  real and the finiteness of the inputs is never used.  Narrowing to a shorter float format is the
  identity on the extended reals, the two later layers are the same sums entry by entry, and both
  programs gather and scatter with the same indices.  Hence the edge results are equal, therefore the
  scattered sums are equal, therefore the node results are equal.

  The three frames are the generated ones (the reference's is its generated run with the results
  dropped); the idealization rewrote nothing, so there is nothing to preserve.
-/
import proofs.«100135_j64424509440353_2_alg».proof.Defs
import proofs.«100135_j64424509440353_2_alg».proof.Proof.Gen.Kernel
import proofs.«100135_j64424509440353_2_alg».proof.Proof.Gen.Kernel.Skeleton
import proofs.«100135_j64424509440353_2_alg».proof.Proof.Gen.Kernel.Launch
import proofs.«100135_j64424509440353_2_alg».proof.Proof.Gen.Kernel.Points
import proofs.«100135_j64424509440353_2_alg».proof.Proof.Gen.Kernel.Frame
import proofs.«100135_j64424509440353_2_alg».proof.Proof.Gen.KernelIdeal
import proofs.«100135_j64424509440353_2_alg».proof.Proof.Gen.KernelIdeal.Skeleton
import proofs.«100135_j64424509440353_2_alg».proof.Proof.Gen.KernelIdeal.Launch
import proofs.«100135_j64424509440353_2_alg».proof.Proof.Gen.KernelIdeal.Points
import proofs.«100135_j64424509440353_2_alg».proof.Proof.Gen.KernelIdeal.Frame
import proofs.«100135_j64424509440353_2_alg».proof.Proof.Gen.ReferenceIdeal
import proofs.«100135_j64424509440353_2_alg».proof.Proof.Gen.Pre_finite_inputs
import proofs.«100135_j64424509440353_2_alg».proof.Proof.Gen.ReferenceIdeal.Run
import proofs.«100135_j64424509440353_2_alg».proof.Proof.Gen.ReferenceIdeal.Read
import proofs.«100135_j64424509440353_2_alg».proof.Proof.Agree
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- From memories that agree on the sixteen arguments, both programs end with the node result
    `nodeOut` and the edge result `edgeOut` of those arguments. -/
theorem algebraic : Cert.algebraic_KernelIdeal_ReferenceIdeal := by
  intro m ρ m' ρ' _ hagree
  refine ⟨fun c => Mpnn.nodeOut (m ((c.tc : Thread Cert.KernelIdeal.nD Cert.KernelIdeal.τ).loc Cert.KernelIdeal.main_arg0))
        (Cert.KernelIdeal.Gen.V3 m ρ c Cert.KernelIdeal.main_v24 : Cert.KernelIdeal.S100000x32.Idx → EReal)
        (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Mpnn.edgeOut (Cert.KernelIdeal.Gen.V1 m ρ c Cert.KernelIdeal.main_v7 : Cert.KernelIdeal.S1600000x32.Idx → EReal)
        (Cert.KernelIdeal.Gen.V1 m ρ c Cert.KernelIdeal.main_v14 : Cert.KernelIdeal.S1600000x32.Idx → EReal)
        (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.RunValue.node_exit m ρ c),
        (h c).2.1.trans (Cert.KernelIdeal.RunValue.edge_exit m ρ c), (h c).2.2⟩)
      (Cert.KernelIdeal.RunValue.run_exit m ρ)
  · refine (θ_run Cert.ReferenceIdeal.defs _ _).mono (fun r h c => ⟨(h c).1.trans ?_, (h c).2.1.trans ?_, (h c).2.2⟩)
      (Cert.ReferenceIdeal.Value.run (F := Ideal) m' ρ')
    · refine (Cert.ReferenceIdeal.Read.val_main_v48_eq _ _ _ _ _ _ _ _ _ _ _ _ _ _ _ _).trans ?_
      beta_reduce
      obtain ⟨a0, a1, a2, a3, a4, a5, a6, a7, a8, a9, a10, a11, a12, a13, a14, a15⟩ := hagree c
      rw [a0, a1, a2, a3, a4, a5, a6, a7, a8, a9, a10, a11, a12, a13, a14, a15,
        Cert.ReferenceIdeal.RefValue.node_result, Cert.Proof.Agree.scatter m ρ c]
    · refine (Cert.ReferenceIdeal.Read.val_main_v29_eq _ _ _ _ _ _ _ _ _ _).trans ?_
      beta_reduce
      obtain ⟨a0, a1, a2, a3, a4, a5, a6, a7, a8, a9, -⟩ := hagree c
      rw [a0, a1, a2, a3, a4, a5, a6, a7, a8, a9]
      exact (Cert.Proof.Agree.edge_value m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
